-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x216 : Shape := ⟨2, ![16384, 216]⟩
abbrev S73x256 : Shape := ⟨2, ![73, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S16384x216 : S_.BroadcastsInDim S16384x216 (![] : Fin 0 → Fin S16384x216.rank)
  reducesTo_S16384x216_S_d0_1 : S16384x216.ReducesTo [0, 1] S_
  h_S_ : 0 < S_.numel
  bcast_S_S73x256 : S_.BroadcastsInDim S73x256 (![] : Fin 0 → Fin S73x256.rank)
  reducesTo_S73x256_S_d0_1 : S73x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S256x64 .f32) (main_arg8 : FVec F S64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x64 .f32) (main_arg8 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16384x216 .f32) (main_arg1 : FVec F S73x256 .f32) (main_arg2 : FVec F S256 .f32) (main_arg3 : FVec F S256 .f32) (main_arg4 : FVec F S256 .f32) (main_arg5 : FVec F S256x256 .f32) (main_arg6 : FVec F S256 .f32) (main_arg7 : FVec F S256x64 .f32) (main_arg8 : FVec F S64 .f32) : IVec S_ 1 :=
  let main_v0 : FVec F S16384x216 .f32 := Host.absf main_arg0
  let main_cst : FVec F S_ .f32 := constant S_ .f32 0x7F800000#32
  let main_v1 : FVec F S16384x216 .f32 := broadcastInDim S16384x216 ![] bcast_S_S16384x216 main_cst
  let main_v2 : IVec S16384x216 1 := cmpf .olt main_v0 main_v1
  let main_c : IVec S_ 1 := constantI S_ 1 1#1
  let main_v3 : IVec S_ 1 := (fun x v => Host.reduce IntOp.andi x v reducesTo_S16384x216_S_d0_1 h_S_) main_v2 main_c
  let main_v4 : FVec F S73x256 .f32 := Host.absf main_arg1
  let main_cst_0 : FVec F S_ .f32 := constant S_ .f32 0x7F800000#32
  let main_v5 : FVec F S73x256 .f32 := broadcastInDim S73x256 ![] bcast_S_S73x256 main_cst_0
  let main_v6 : IVec S73x256 1 := cmpf .olt main_v4 main_v5
  let main_c_1 : IVec S_ 1 := constantI S_ 1 1#1
  let main_v7 : IVec S_ 1 := (fun x v => Host.reduce IntOp.andi x v reducesTo_S73x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S16384x216 : Shape := ⟨2, ![16384, 216]⟩
abbrev S73x256 : Shape := ⟨2, ![73, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S16384x48 : Shape := ⟨2, ![16384, 48]⟩
abbrev S16384x168 : Shape := ⟨2, ![16384, 168]⟩
abbrev S16384x24x7 : Shape := ⟨3, ![16384, 24, 7]⟩
abbrev S16384x7x24 : Shape := ⟨3, ![16384, 7, 24]⟩
abbrev S16384x64 : Shape := ⟨2, ![16384, 64]⟩
abbrev S1024x48 : Shape := ⟨2, ![1024, 48]⟩
abbrev S1024x168 : Shape := ⟨2, ![1024, 168]⟩
abbrev S1024x64 : Shape := ⟨2, ![1024, 64]⟩
abbrev S1024x24 : Shape := ⟨2, ![1024, 24]⟩
abbrev S1024x1 : Shape := ⟨2, ![1024, 1]⟩
abbrev S1024x73 : Shape := ⟨2, ![1024, 73]⟩
abbrev S1024x256 : Shape := ⟨2, ![1024, 256]⟩
abbrev S1x256 : Shape := ⟨2, ![1, 256]⟩
abbrev S1024 : Shape := ⟨1, ![1024]⟩
abbrev S1x64 : Shape := ⟨2, ![1, 64]⟩
abbrev S16384x112 : Shape := ⟨2, ![16384, 112]⟩

abbrev nBuf : Space → Nat
  | .hbm => 19
  | .vmem => 14
  | .smem => 0
  | _ => 0

abbrev bufTy : (tb : Table) → Fin (tcTables nBuf tb) → BufTy
  | .hbm, ⟨0, _⟩ => ⟨S16384x216, .f32⟩
  | .hbm, ⟨1, _⟩ => ⟨S73x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S16384x48, .f32⟩
  | .hbm, ⟨10, _⟩ => ⟨S16384x168, .f32⟩
  | .hbm, ⟨11, _⟩ => ⟨S16384x24x7, .f32⟩
  | .hbm, ⟨12, _⟩ => ⟨S16384x7x24, .f32⟩
  | .hbm, ⟨13, _⟩ => ⟨S16384x168, .f32⟩
  | .hbm, ⟨14, _⟩ => ⟨S73x256, .bf16⟩
  | .hbm, ⟨15, _⟩ => ⟨S256x256, .bf16⟩
  | .hbm, ⟨16, _⟩ => ⟨S256x64, .bf16⟩
  | .hbm, ⟨17, _⟩ => ⟨S16384x64, .f32⟩
  | .hbm, ⟨18, _⟩ => ⟨S16384x112, .f32⟩
  | .local _ .vmem, ⟨0, _⟩ => ⟨S1024x48, .f32⟩
  | .local _ .vmem, ⟨1, _⟩ => ⟨S1024x48, .f32⟩
  | .local _ .vmem, ⟨2, _⟩ => ⟨S1024x168, .f32⟩
  | .local _ .vmem, ⟨3, _⟩ => ⟨S1024x168, .f32⟩
  | .local _ .vmem, ⟨4, _⟩ => ⟨S73x256, .bf16⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x64, .bf16⟩
  | .local _ .vmem, ⟨11, _⟩ => ⟨S64, .f32⟩
  | .local _ .vmem, ⟨12, _⟩ => ⟨S1024x64, .f32⟩
  | .local _ .vmem, ⟨13, _⟩ => ⟨S1024x64, .f32⟩
  | _, _ => ⟨S16384x216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S73x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S16384x216_S16384x48_0_0 : S16384x216.Slices ![0, 0] S16384x48
  slices_S16384x216_S16384x168_0_48 : S16384x216.Slices ![0, 48] S16384x168
  shapeCasts_S16384x168_S16384x24x7 : S16384x168.ShapeCasts S16384x24x7
  transposes_S16384x24x7_S16384x7x24_0_2_1 : S16384x24x7.Transposes [0, 2, 1] S16384x7x24
  shapeCasts_S16384x7x24_S16384x168 : S16384x7x24.ShapeCasts S16384x168
  bitsLt_bf16_f32 : FTy.bits .bf16 < FTy.bits .f32
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  inb_S73x256_S73x256_0_0 : ∀ a, (![0, 0] : Fin 2 → Nat) a + S73x256.size a ≤ S73x256.size a
  h_S73x256 : 0 < S73x256.numel
  shapeCasts_S73x256_S73x256 : S73x256.ShapeCasts S73x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256_S256_0 : ∀ a, (![0] : Fin 1 → Nat) a + S256.size a ≤ S256.size a
  h_S256 : 0 < S256.numel
  inb_S64_S64_0 : ∀ a, (![0] : Fin 1 → Nat) a + S64.size a ≤ S64.size a
  h_S64 : 0 < S64.numel
  inb_S1024x168_S1024x24_0_0 : ∀ a, (![0, 0] : Fin 2 → Nat) a + S1024x24.size a ≤ S1024x168.size a
  h_S1024x24 : 0 < S1024x24.numel
  shapeCasts_S1024x24_S1024x24 : S1024x24.ShapeCasts S1024x24
  concatenates_S1024x48_S1024x24_S1024x1_S1024x73_d1 : Shape.Concatenates [S1024x48, S1024x24, S1024x1] S1024x73 1
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  shapeCasts_S64_S1x64 : S64.ShapeCasts S1x64
  broadcasts_S1x64_S1024x64 : S1x64.Broadcasts S1024x64
  inb_S1024x168_S1024x24_0_24 : ∀ a, (![0, 24] : Fin 2 → Nat) a + S1024x24.size a ≤ S1024x168.size a
  inb_S1024x168_S1024x24_0_48 : ∀ a, (![0, 48] : Fin 2 → Nat) a + S1024x24.size a ≤ S1024x168.size a
  inb_S1024x168_S1024x24_0_72 : ∀ a, (![0, 72] : Fin 2 → Nat) a + S1024x24.size a ≤ S1024x168.size a
  inb_S1024x168_S1024x24_0_96 : ∀ a, (![0, 96] : Fin 2 → Nat) a + S1024x24.size a ≤ S1024x168.size a
  inb_S1024x168_S1024x24_0_120 : ∀ a, (![0, 120] : Fin 2 → Nat) a + S1024x24.size a ≤ S1024x168.size a
  inb_S1024x168_S1024x24_0_144 : ∀ a, (![0, 144] : Fin 2 → Nat) a + S1024x24.size a ≤ S1024x168.size a
  inb_S1024x64_S1024x64_0_0 : ∀ a, (![0, 0] : Fin 2 → Nat) a + S1024x64.size a ≤ S1024x64.size a
  h_S1024x64 : 0 < S1024x64.numel
  concatenates_S16384x48_S16384x64_S16384x112_d1 : Shape.Concatenates [S16384x48, S16384x64] S16384x112 1
  dot_S1024x73_S73x256_S1024x256_1_0_0_1_n_n_wf : DotDims.WF S1024x73 S73x256 S1024x256 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x48.size a ≤ S16384x48.size a
  hwx0_0 : ∀ i : grid0.Coords, EltTy.bits .f32 = 32 ∨ (Rect.block (s := S16384x48) S1024x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x168.size a ≤ S16384x168.size a
  hwx0_1 : ∀ i : grid0.Coords, EltTy.bits .f32 = 32 ∨ (Rect.block (s := S16384x168) S1024x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S73x256.size a ≤ S73x256.size a
  hwx0_2 : ∀ i : grid0.Coords, EltTy.bits .bf16 = 32 ∨ (Rect.block (s := S73x256) S73x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .bf16 = 32 ∨ (Rect.block (s := S256x64) S256x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S16384x64.size a
  hwx0_10 : ∀ i : grid0.Coords, EltTy.bits .f32 = 32 ∨ (Rect.block (s := S16384x64) S1024x64.size (cc0_transform_10 i) (hinb0_10 i)).WholeWords (EltTy.packing .f32)

variable [Facts₀]

def dot_S1024x73_S73x256_S1024x256_1_0_0_1_n_n : DotDims S1024x73 S73x256 S1024x256 where
  lhsContracting := [1]
  rhsContracting := [0]
  lhsNonContracting := [0]
  rhsNonContracting := [1]
  lhsBatch := []
  rhsBatch := []
  wf := dot_S1024x73_S73x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v0) S1024x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S73x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x216 : Shape := ⟨2, ![16384, 216]⟩
abbrev S73x256 : Shape := ⟨2, ![73, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S7 : Shape := ⟨1, ![7]⟩
abbrev S16384x48 : Shape := ⟨2, ![16384, 48]⟩
abbrev S16384x168 : Shape := ⟨2, ![16384, 168]⟩
abbrev S16384x24x7 : Shape := ⟨3, ![16384, 24, 7]⟩
abbrev S16384x7x24 : Shape := ⟨3, ![16384, 7, 24]⟩
abbrev S16384x1x48 : Shape := ⟨3, ![16384, 1, 48]⟩
abbrev S16384x7x48 : Shape := ⟨3, ![16384, 7, 48]⟩
abbrev S1x7x1 : Shape := ⟨3, ![1, 7, 1]⟩
abbrev S16384x7x1 : Shape := ⟨3, ![16384, 7, 1]⟩
abbrev S16384x7x73 : Shape := ⟨3, ![16384, 7, 73]⟩
abbrev S16384x7x256 : Shape := ⟨3, ![16384, 7, 256]⟩
abbrev S1x1x256 : Shape := ⟨3, ![1, 1, 256]⟩
abbrev S_ : Shape := ⟨0, ![]⟩
abbrev S16384x7 : Shape := ⟨2, ![16384, 7]⟩
abbrev S16384x7x64 : Shape := ⟨3, ![16384, 7, 64]⟩
abbrev S1x1x64 : Shape := ⟨3, ![1, 1, 64]⟩
abbrev S16384x64 : Shape := ⟨2, ![16384, 64]⟩
abbrev S16384x112 : Shape := ⟨2, ![16384, 112]⟩

abbrev nBuf : Space → Nat
  | .hbm => 79
  | .vmem => 0
  | .smem => 0
  | _ => 0

abbrev bufTy : (tb : Table) → Fin (tcTables nBuf tb) → BufTy
  | .hbm, ⟨0, _⟩ => ⟨S16384x216, .f32⟩
  | .hbm, ⟨1, _⟩ => ⟨S73x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S7, .f32⟩
  | .hbm, ⟨10, _⟩ => ⟨S16384x48, .f32⟩
  | .hbm, ⟨11, _⟩ => ⟨S16384x168, .f32⟩
  | .hbm, ⟨12, _⟩ => ⟨S16384x24x7, .f32⟩
  | .hbm, ⟨13, _⟩ => ⟨S16384x7x24, .f32⟩
  | .hbm, ⟨14, _⟩ => ⟨S16384x1x48, .f32⟩
  | .hbm, ⟨15, _⟩ => ⟨S16384x7x48, .f32⟩
  | .hbm, ⟨16, _⟩ => ⟨S1x7x1, .f32⟩
  | .hbm, ⟨17, _⟩ => ⟨S16384x7x1, .f32⟩
  | .hbm, ⟨18, _⟩ => ⟨S16384x7x73, .f32⟩
  | .hbm, ⟨19, _⟩ => ⟨S16384x7x256, .f32⟩
  | .hbm, ⟨20, _⟩ => ⟨S1x1x256, .f32⟩
  | .hbm, ⟨21, _⟩ => ⟨S16384x7x256, .f32⟩
  | .hbm, ⟨22, _⟩ => ⟨S16384x7x256, .f32⟩
  | .hbm, ⟨23, _⟩ => ⟨S_, .f32⟩
  | .hbm, ⟨24, _⟩ => ⟨S16384x7, .f32⟩
  | .hbm, ⟨25, _⟩ => ⟨S16384x7x1, .f32⟩
  | .hbm, ⟨26, _⟩ => ⟨S_, .f32⟩
  | .hbm, ⟨27, _⟩ => ⟨S16384x7x1, .f32⟩
  | .hbm, ⟨28, _⟩ => ⟨S16384x7x1, .f32⟩
  | .hbm, ⟨29, _⟩ => ⟨S16384x7x256, .f32⟩
  | .hbm, ⟨30, _⟩ => ⟨S16384x7x256, .f32⟩
  | .hbm, ⟨31, _⟩ => ⟨S16384x7x256, .f32⟩
  | .hbm, ⟨32, _⟩ => ⟨S_, .f32⟩
  | .hbm, ⟨33, _⟩ => ⟨S16384x7, .f32⟩
  | .hbm, ⟨34, _⟩ => ⟨S16384x7x1, .f32⟩
  | .hbm, ⟨35, _⟩ => ⟨S_, .f32⟩
  | .hbm, ⟨36, _⟩ => ⟨S16384x7x1, .f32⟩
  | .hbm, ⟨37, _⟩ => ⟨S16384x7x1, .f32⟩
  | .hbm, ⟨38, _⟩ => ⟨S16384x7x256, .f32⟩
  | .hbm, ⟨39, _⟩ => ⟨S16384x7x256, .f32⟩
  | .hbm, ⟨40, _⟩ => ⟨S_, .f32⟩
  | .hbm, ⟨41, _⟩ => ⟨S16384x7x1, .f32⟩
  | .hbm, ⟨42, _⟩ => ⟨S16384x7x1, .f32⟩
  | .hbm, ⟨43, _⟩ => ⟨S16384x7x1, .f32⟩
  | .hbm, ⟨44, _⟩ => ⟨S16384x7x256, .f32⟩
  | .hbm, ⟨45, _⟩ => ⟨S16384x7x256, .f32⟩
  | .hbm, ⟨46, _⟩ => ⟨S1x1x256, .f32⟩
  | .hbm, ⟨47, _⟩ => ⟨S16384x7x256, .f32⟩
  | .hbm, ⟨48, _⟩ => ⟨S16384x7x256, .f32⟩
  | .hbm, ⟨49, _⟩ => ⟨S1x1x256, .f32⟩
  | .hbm, ⟨50, _⟩ => ⟨S16384x7x256, .f32⟩
  | .hbm, ⟨51, _⟩ => ⟨S16384x7x256, .f32⟩
  | .hbm, ⟨52, _⟩ => ⟨S16384x7x256, .f32⟩
  | .hbm, ⟨53, _⟩ => ⟨S16384x7x256, .f32⟩
  | .hbm, ⟨54, _⟩ => ⟨S1x1x256, .f32⟩
  | .hbm, ⟨55, _⟩ => ⟨S16384x7x256, .f32⟩
  | .hbm, ⟨56, _⟩ => ⟨S16384x7x256, .f32⟩
  | .hbm, ⟨57, _⟩ => ⟨S_, .f32⟩
  | .hbm, ⟨58, _⟩ => ⟨S16384x7x256, .f32⟩
  | .hbm, ⟨59, _⟩ => ⟨S16384x7x256, .i1⟩
  | .hbm, ⟨60, _⟩ => ⟨S_, .f32⟩
  | .hbm, ⟨61, _⟩ => ⟨S16384x7x256, .f32⟩
  | .hbm, ⟨62, _⟩ => ⟨S16384x7x256, .i1⟩
  | .hbm, ⟨63, _⟩ => ⟨S_, .f32⟩
  | .hbm, ⟨64, _⟩ => ⟨S_, .f32⟩
  | .hbm, ⟨65, _⟩ => ⟨S16384x7x256, .f32⟩
  | .hbm, ⟨66, _⟩ => ⟨S16384x7x256, .f32⟩
  | .hbm, ⟨67, _⟩ => ⟨S16384x7x256, .f32⟩
  | .hbm, ⟨68, _⟩ => ⟨S_, .f32⟩
  | .hbm, ⟨69, _⟩ => ⟨S16384x7x256, .f32⟩
  | .hbm, ⟨70, _⟩ => ⟨S16384x7x256, .f32⟩
  | .hbm, ⟨71, _⟩ => ⟨S16384x7x256, .f32⟩
  | .hbm, ⟨72, _⟩ => ⟨S16384x7x64, .f32⟩
  | .hbm, ⟨73, _⟩ => ⟨S1x1x64, .f32⟩
  | .hbm, ⟨74, _⟩ => ⟨S16384x7x64, .f32⟩
  | .hbm, ⟨75, _⟩ => ⟨S16384x7x64, .f32⟩
  | .hbm, ⟨76, _⟩ => ⟨S_, .f32⟩
  | .hbm, ⟨77, _⟩ => ⟨S16384x64, .f32⟩
  | .hbm, ⟨78, _⟩ => ⟨S16384x112, .f32⟩
  | _, _ => ⟨S16384x216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_cst_1 : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_v4 : Ref sig .tc := ⟨.hbm, 66, rfl⟩
abbrev main_call0_v5 : Ref sig .tc := ⟨.hbm, 67, rfl⟩
abbrev main_call0_cst_2 : Ref sig .tc := ⟨.hbm, 68, rfl⟩
abbrev main_call0_v6 : Ref sig .tc := ⟨.hbm, 69, rfl⟩
abbrev main_call0_v7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]

class Facts₀ : Prop where
  slices_S16384x216_S16384x48_0_0 : S16384x216.Slices ![0, 0] S16384x48
  slices_S16384x216_S16384x168_0_48 : S16384x216.Slices ![0, 48] S16384x168
  shapeCasts_S16384x168_S16384x24x7 : S16384x168.ShapeCasts S16384x24x7
  transposes_S16384x24x7_S16384x7x24_0_2_1 : S16384x24x7.Transposes [0, 2, 1] S16384x7x24
  bcast_S16384x48_S16384x1x48_0_2 : S16384x48.BroadcastsInDim S16384x1x48 (![0, 2] : Fin 2 → Fin S16384x1x48.rank)
  bcast_S16384x1x48_S16384x7x48_0_1_2 : S16384x1x48.BroadcastsInDim S16384x7x48 (![0, 1, 2] : Fin 3 → Fin S16384x7x48.rank)
  bcast_S7_S1x7x1_1 : S7.BroadcastsInDim S1x7x1 (![1] : Fin 1 → Fin S1x7x1.rank)
  bcast_S1x7x1_S16384x7x1_0_1_2 : S1x7x1.BroadcastsInDim S16384x7x1 (![0, 1, 2] : Fin 3 → Fin S16384x7x1.rank)
  concatenates_S16384x7x48_S16384x7x24_S16384x7x1_S16384x7x73_d2 : Shape.Concatenates [S16384x7x48, S16384x7x24, S16384x7x1] S16384x7x73 2
  bcast_S256_S1x1x256_2 : S256.BroadcastsInDim S1x1x256 (![2] : Fin 1 → Fin S1x1x256.rank)
  bcast_S1x1x256_S16384x7x256_0_1_2 : S1x1x256.BroadcastsInDim S16384x7x256 (![0, 1, 2] : Fin 3 → Fin S16384x7x256.rank)
  reducesTo_S16384x7x256_S16384x7_d2 : S16384x7x256.ReducesTo [2] S16384x7
  h_S_ : 0 < S_.numel
  bcast_S16384x7_S16384x7x1_0_1 : S16384x7.BroadcastsInDim S16384x7x1 (![0, 1] : Fin 2 → Fin S16384x7x1.rank)
  bcast_S_S16384x7x1 : S_.BroadcastsInDim S16384x7x1 (![] : Fin 0 → Fin S16384x7x1.rank)
  bcast_S16384x7x1_S16384x7x256_0_1_2 : S16384x7x1.BroadcastsInDim S16384x7x256 (![0, 1, 2] : Fin 3 → Fin S16384x7x256.rank)
  bcast_S_S16384x7x256 : S_.BroadcastsInDim S16384x7x256 (![] : Fin 0 → Fin S16384x7x256.rank)
  bcast_S64_S1x1x64_2 : S64.BroadcastsInDim S1x1x64 (![2] : Fin 1 → Fin S1x1x64.rank)
  bcast_S1x1x64_S16384x7x64_0_1_2 : S1x1x64.BroadcastsInDim S16384x7x64 (![0, 1, 2] : Fin 3 → Fin S16384x7x64.rank)
  reducesTo_S16384x7x64_S16384x64_d1 : S16384x7x64.ReducesTo [1] S16384x64
  concatenates_S16384x48_S16384x64_S16384x112_d1 : Shape.Concatenates [S16384x48, S16384x64] S16384x112 1
  dot_S16384x7x73_S73x256_S16384x7x256_2_0_01_1_n_n_wf : DotDims.WF S16384x7x73 S73x256 S16384x7x256 [2] [0] [0, 1] [1] [] []
  dot_S16384x7x256_S256x256_S16384x7x256_2_0_01_1_n_n_wf : DotDims.WF S16384x7x256 S256x256 S16384x7x256 [2] [0] [0, 1] [1] [] []
  dot_S16384x7x256_S256x64_S16384x7x64_2_0_01_1_n_n_wf : DotDims.WF S16384x7x256 S256x64 S16384x7x64 [2] [0] [0, 1] [1] [] []

variable [Facts₀]

def dot_S16384x7x73_S73x256_S16384x7x256_2_0_01_1_n_n : DotDims S16384x7x73 S73x256 S16384x7x256 where
  lhsContracting := [2]
  rhsContracting := [0]
  lhsNonContracting := [0, 1]
  rhsNonContracting := [1]
  lhsBatch := []
  rhsBatch := []
  wf := dot_S16384x7x73_S73x256_S16384x7x256_2_0_01_1_n_n_wf
def dot_S16384x7x256_S256x256_S16384x7x256_2_0_01_1_n_n : DotDims S16384x7x256 S256x256 S16384x7x256 where
  lhsContracting := [2]
  rhsContracting := [0]
  lhsNonContracting := [0, 1]
  rhsNonContracting := [1]
  lhsBatch := []
  rhsBatch := []
  wf := dot_S16384x7x256_S256x256_S16384x7x256_2_0_01_1_n_n_wf
def dot_S16384x7x256_S256x64_S16384x7x64_2_0_01_1_n_n : DotDims S16384x7x256 S256x64 S16384x7x64 where
  lhsContracting := [2]
  rhsContracting := [0]
  lhsNonContracting := [0, 1]
  rhsNonContracting := [1]
  lhsBatch := []
  rhsBatch := []
  wf := dot_S16384x7x256_S256x64_S16384x7x64_2_0_01_1_n_n_wf

class Facts : Prop extends Facts₀ where

variable [Facts]
-- ==== Proof.KStages.lean ====
/-
  One neighbour's network, as the kernel computes it on a block of 1024 rows.

  For each of the seven neighbours the body builds the 73 input features of every row (the 48 ego features, the
  neighbour's 24 features, the neighbour's team number), applies the first linear layer, normalises every row
  (subtract the row mean, divide by the root of the row variance plus a small constant, scale and shift), takes tanh,
  applies the second linear layer, the exponential linear unit, and the third linear layer; the seven results are
  added, one after the other, to a zero block. Here that per-neighbour computation is written once as a function of
  the block's arrays, and the value the body stores is shown to be the zero block plus the seven neighbours' results.
-/
import proofs.«178341_j24919400252111_1_alg».proof.Proof.Gen.KernelIdeal.Frame

noncomputable section

namespace Cert.KernelIdeal.Stage

open Idealize.ShloMosaic Idealize.SL.Sem Cert.KernelIdeal Cert.KernelIdeal.Gen

variable {F : FTy → Type} [FloatOps F]

/-- The first layer before normalisation: the 73 features of every row (ego, neighbour, team number) times the first
    weight matrix, plus the first bias. -/
def hid1 (ego : FVec F S1024x48 .f32) (w1 : FVec F S73x256 .bf16) (b1 : Vec F S256 .f32) (ado : Vec F S1024x24 .f32)
    (team : F .f32) : FVec F S1024x256 .f32 :=
  addf (matmul dot_S1024x73_S73x256_S1024x256_1_0_0_1_n_n none
      (truncf .bf16 (concatenate S1024x73 1 [⟨S1024x48, ego⟩, ⟨S1024x24, shapeCast S1024x24 ado shapeCasts_S1024x24_S1024x24⟩,
        ⟨S1024x1, broadcast S1024x1 team⟩] concatenates_S1024x48_S1024x24_S1024x1_S1024x73_d1) bitsLt_bf16_f32)
      w1 (constant S1024x256 .f32 0x00000000#32))
    (broadcastTo S1024x256 (shapeCast S1x256 b1 shapeCasts_S256_S1x256) broadcasts_S1x256_S1024x256)

/-- The sum of every row as a column. -/
def rowSum (v : FVec F S1024x256 .f32) : FVec F S1024x1 .f32 :=
  shapeCast S1024x1 (multiReduction .add [1] S1024 v 0x00000000#32 reduces_S1024x256_S1024 (.inl rfl) rfl) shapeCasts_S1024_S1024x1

/-- The mean of every row as a column: the row sum divided by 256. -/
def rowMean (v : FVec F S1024x256 .f32) : FVec F S1024x1 .f32 :=
  divf (rowSum v) (broadcast S1024x1 (Scalar.ofBits .f32 0x43800000#32))

/-- Every row less its mean. -/
def centered (v : FVec F S1024x256 .f32) : FVec F S1024x256 .f32 :=
  subf v (broadcastTo S1024x256 (rowMean v) broadcasts_S1024x1_S1024x256)

/-- A centred row divided by the root of its variance plus the small constant, scaled, shifted, through tanh. -/
def normAct (d : FVec F S1024x256 .f32) (g b : Vec F S256 .f32) : FVec F S1024x256 .f32 :=
  tanh (addf (mulf (mulf d (broadcastTo S1024x256
        (rsqrt (addf (rowMean (mulf d d)) (broadcast S1024x1 (Scalar.ofBits .f32 0x3727C5AC#32)))) broadcasts_S1024x1_S1024x256))
      (broadcastTo S1024x256 (shapeCast S1x256 g shapeCasts_S256_S1x256) broadcasts_S1x256_S1024x256))
    (broadcastTo S1024x256 (shapeCast S1x256 b shapeCasts_S256_S1x256) broadcasts_S1x256_S1024x256))

/-- The second linear layer. -/
def hid2 (a : FVec F S1024x256 .f32) (w2 : FVec F S256x256 .bf16) (b2 : Vec F S256 .f32) : FVec F S1024x256 .f32 :=
  addf (matmul dot_S1024x256_S256x256_S1024x256_1_0_0_1_n_n none (truncf .bf16 a bitsLt_bf16_f32) w2 (constant S1024x256 .f32 0x00000000#32))
    (broadcastTo S1024x256 (shapeCast S1x256 b2 shapeCasts_S256_S1x256) broadcasts_S1x256_S1024x256)

/-- The exponential linear unit: an entry above zero is kept, any other becomes its exponential less one. -/
def eluV (h : FVec F S1024x256 .f32) : FVec F S1024x256 .f32 :=
  select (cmpf .ogt h (broadcast S1024x256 (Scalar.ofBits .f32 0x00000000#32))) h
    (subf (exp h) (broadcast S1024x256 (Scalar.ofBits .f32 0x3F800000#32)))

/-- The third linear layer. -/
def outL (e : FVec F S1024x256 .f32) (w3 : FVec F S256x64 .bf16) (b3 : Vec F S64 .f32) : FVec F S1024x64 .f32 :=
  addf (matmul dot_S1024x256_S256x64_S1024x64_1_0_0_1_n_n none (truncf .bf16 e bitsLt_bf16_f32) w3 (constant S1024x64 .f32 0x00000000#32))
    (broadcastTo S1024x64 (shapeCast S1x64 b3 shapeCasts_S64_S1x64) broadcasts_S1x64_S1024x64)

/-- One neighbour's result on the block. -/
def nbr (ego : FVec F S1024x48 .f32) (w1 : FVec F S73x256 .bf16) (b1 g b : Vec F S256 .f32) (w2 : FVec F S256x256 .bf16)
    (b2 : Vec F S256 .f32) (w3 : FVec F S256x64 .bf16) (b3 : Vec F S64 .f32) (ado : Vec F S1024x24 .f32) (team : F .f32) :
    FVec F S1024x64 .f32 :=
  outL (eluV (hid2 (normAct (centered (hid1 ego w1 b1 ado team)) g b) w2 b2)) w3 b3

/-- The block the body stores: the zero block plus the seven neighbours' results, in order; the first three
    neighbours are of team 0, the last four of team 1. -/
def total (ego : Vec F S1024x48 .f32) (a0 a1 a2 a3 a4 a5 a6 : Vec F S1024x24 .f32) (w1 : Vec F S73x256 .bf16)
    (b1 g b : Vec F S256 .f32) (w2 : Vec F S256x256 .bf16) (b2 : Vec F S256 .f32) (w3 : Vec F S256x64 .bf16)
    (b3 : Vec F S64 .f32) : FVec F S1024x64 .f32 :=
  let one (a : Vec F S1024x24 .f32) (t : F .f32) : FVec F S1024x64 .f32 :=
    nbr (shapeCast S1024x48 ego shapeCasts_S1024x48_S1024x48) (shapeCast S73x256 w1 shapeCasts_S73x256_S73x256) b1 g b
      (shapeCast S256x256 w2 shapeCasts_S256x256_S256x256) b2 (shapeCast S256x64 w3 shapeCasts_S256x64_S256x64) b3 a t
  let z : F .f32 := Scalar.ofBits .f32 0x00000000#32
  let o : F .f32 := Scalar.ofBits .f32 0x3F800000#32
  addf (addf (addf (addf (addf (addf (addf (broadcast S1024x64 z) (one a0 z)) (one a1 z)) (one a2 z)) (one a3 o)) (one a4 o)) (one a5 o)) (one a6 o)

/-- What the body leaves in the output block is that sum, of the blocks it loads: the seven column groups of the
    neighbours' block, the ego block, the weights and biases. -/
theorem out_eq_total (x0 : Vec F S1024x48 .f32) (x1 : Vec F S1024x168 .f32) (x2 : Vec F S73x256 .bf16) (x3 x4 x5 : Vec F S256 .f32)
    (x6 : Vec F S256x256 .bf16) (x7 : Vec F S256 .f32) (x8 : Vec F S256x64 .bf16) (x9 : Vec F S64 .f32) :
    out0_10 x0 x1 x2 x3 x4 x5 x6 x7 x8 x9
      = View.canon [⟨r0_13, total (View.ld x0 r0_0) (View.ld x1 r0_6) (View.ld x1 r0_7) (View.ld x1 r0_8) (View.ld x1 r0_9)
          (View.ld x1 r0_10) (View.ld x1 r0_11) (View.ld x1 r0_12) (View.ld x2 r0_1) (View.ld x3 r0_4) (View.ld x4 r0_4)
          (View.ld x5 r0_4) (View.ld x6 r0_2) (View.ld x7 r0_4) (View.ld x8 r0_3) (View.ld x9 r0_5)⟩] := rfl

end Cert.KernelIdeal.Stage

end
-- ==== Proof.Spec.lean ====
/-
  One row's network on the extended reals.

  A row of 73 features goes through a linear layer to 256 values; these are normalised (the mean of the 256 is
  subtracted, the result is divided by the square root of the mean square plus a small constant, then scaled and
  shifted entry by entry), and passed through tanh; a second linear layer to 256 values follows, then the exponential
  linear unit, then a third linear layer to 64 values. A batch row has seven such feature rows, one per neighbour:
  its 48 ego features, the neighbour's 24 features and the neighbour's team number; the seven results are added
  to zero, in order. The result array holds, per batch row, the 48 ego features followed by those 64 sums.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The 73 features of one neighbour's row: 48 ego features, 24 of the neighbour, the team number. -/
def feat (e : Fin 48 → EReal) (a : Fin 24 → EReal) (t : EReal) (k : Fin 73) : EReal :=
  if h : k.val < 48 then e ⟨k.val, h⟩ else if h' : k.val < 72 then a ⟨k.val - 48, by omega⟩ else t

/-- A linear layer on one row: entry `j` is the sum over `i` of `x i · W (i, j)`, plus `b j`. -/
def lin {n k : ℕ} (x : Fin n → EReal) (W : (⟨2, ![n, k]⟩ : Shape).Idx → EReal) (b : (⟨1, ![k]⟩ : Shape).Idx → EReal)
    (j : Fin k) : EReal :=
  (∑ i : Fin n, x i * W (ix2 i j)) + b (ix1 j)

/-- The mean of 256 values: their sum divided by the float 256. -/
def mean (v : Fin 256 → EReal) : EReal := Ideal.div (∑ h : Fin 256, v h) (Ideal.ofBits .f32 0x43800000#32)

/-- A value less the mean of its row. -/
def cen (v : Fin 256 → EReal) (h : Fin 256) : EReal := v h - mean v

/-- The normalised, scaled and shifted value through tanh. -/
def act (v : Fin 256 → EReal) (g b : (⟨1, ![256]⟩ : Shape).Idx → EReal) (h : Fin 256) : EReal :=
  Ideal.tanh (cen v h * Ideal.rsqrt (mean (fun i => cen v i * cen v i) + Ideal.ofBits .f32 0x3727C5AC#32) * g (ix1 h) + b (ix1 h))

/-- The exponential linear unit: a value above zero is kept, any other becomes its exponential less one. -/
def elu (y : EReal) : EReal :=
  Scalar.select (FloatOps.cmpf (F := Ideal) (φ := .f32) .ogt y (Ideal.ofBits .f32 0x00000000#32)) y
    (Ideal.exp y - Ideal.ofBits .f32 0x3F800000#32)

/-- The 64 outputs of one feature row. -/
def rowOut (x : Fin 73 → EReal) (W1 : (⟨2, ![73, 256]⟩ : Shape).Idx → EReal) (b1 g b : (⟨1, ![256]⟩ : Shape).Idx → EReal)
    (W2 : (⟨2, ![256, 256]⟩ : Shape).Idx → EReal) (b2 : (⟨1, ![256]⟩ : Shape).Idx → EReal)
    (W3 : (⟨2, ![256, 64]⟩ : Shape).Idx → EReal) (b3 : (⟨1, ![64]⟩ : Shape).Idx → EReal) (o : Fin 64) : EReal :=
  lin (fun h => elu (lin (act (lin x W1 b1) g b) W2 b2 h)) W3 b3 o

/-- Seven values added to the float zero, in order. -/
def acc7 (f : Fin 7 → EReal) : EReal :=
  Ideal.ofBits .f32 0x00000000#32 + f 0 + f 1 + f 2 + f 3 + f 4 + f 5 + f 6

/-- The float zero plus the sum of seven values is those values added to it in order: sums on the extended reals
    are associative. -/
theorem zero_add_sum7 (f : Fin 7 → EReal) : Ideal.ofBits .f32 0x00000000#32 + ∑ n : Fin 7, f n = acc7 f := by
  unfold acc7
  rw [Fin.sum_univ_seven]
  simp only [add_assoc]

/-- The team numbers of the seven neighbours, as float words: 0, 0, 0, 1, 1, 1, 1. -/
def teamBits : Fin 7 → BitVec 32 := fun
  | 0 => 0x00000000#32 | 1 => 0x00000000#32 | 2 => 0x00000000#32 | 3 => 0x3F800000#32 | 4 => 0x3F800000#32
  | 5 => 0x3F800000#32 | 6 => 0x3F800000#32

/-- The 64 sums of every batch row: entry (R, o) adds, over the seven neighbours in order, output `o` of the row
    network of (row R's ego features, neighbour n's features, neighbour n's team number). -/
def latent (obs : (⟨2, ![16384, 216]⟩ : Shape).Idx → EReal) (W1 : (⟨2, ![73, 256]⟩ : Shape).Idx → EReal)
    (b1 g b : (⟨1, ![256]⟩ : Shape).Idx → EReal) (W2 : (⟨2, ![256, 256]⟩ : Shape).Idx → EReal)
    (b2 : (⟨1, ![256]⟩ : Shape).Idx → EReal) (W3 : (⟨2, ![256, 64]⟩ : Shape).Idx → EReal)
    (b3 : (⟨1, ![64]⟩ : Shape).Idx → EReal) : (⟨2, ![16384, 64]⟩ : Shape).Idx → EReal := fun j =>
  acc7 fun n => rowOut
    (feat (fun i => obs (ix2 (j 0) ⟨i.val, by have := i.isLt; omega⟩))
      (fun i => obs (ix2 (j 0) ⟨48 + i.val * 7 + n.val, by have := i.isLt; have := n.isLt; omega⟩))
      (Ideal.ofBits .f32 (teamBits n)))
    W1 b1 g b W2 b2 W3 b3 (j 1)

end Cert.Spec

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KRead.lean ====
/-
  One neighbour's result on a block, read entry by entry on the extended reals.

  Row `r` of every stage depends on row `r` of the blocks only. The feature row is the ego row, the neighbour's row
  and the team number side by side; a matrix product into the zero block is, at (r, j), the sum over the contraction
  position of the products; a bias row is repeated down the rows; a row sum kept as a column and repeated along the
  row is the same number at every entry of the row. So each stage at (r, ·) is the row function of the specification
  applied to row `r` of the stage before.
-/
import proofs.«178341_j24919400252111_1_alg».proof.Proof.KStages
import proofs.«178341_j24919400252111_1_alg».proof.Proof.Spec
import proofs.«178341_j24919400252111_1_alg».proof.Proof.LibKeepdims
import proofs.«178341_j24919400252111_1_alg».proof.Proof.LibPlainDot
import Idealize.ShloMosaic.Lib.ValueLayout
import Idealize.ShloMosaic.Lib.Pipeline.Value
import Idealize.ShloMosaic.Lib.ValueIdx

noncomputable section

namespace Cert.KernelIdeal.Stage

open Idealize.ShloMosaic Idealize.ShloMosaic.ValueIdx Idealize.SL.Sem Cert.KernelIdeal Cert.KernelIdeal.Gen

/-- The feature block at (r, k): the ego entry for k < 48, the neighbour's entry k − 48 for 48 ≤ k < 72, the team
    number at k = 72. -/
theorem feat_apply (ego : FVec Ideal S1024x48 .f32) (ado : Vec Ideal S1024x24 .f32) (team : Ideal .f32) (r : Fin 1024) (k : Fin 73) :
    concatenate S1024x73 1 [⟨S1024x48, ego⟩, ⟨S1024x24, shapeCast S1024x24 ado shapeCasts_S1024x24_S1024x24⟩,
        ⟨S1024x1, broadcast S1024x1 team⟩] concatenates_S1024x48_S1024x24_S1024x1_S1024x73_d1 (ix2 r k)
      = Spec.feat (fun i => ego (ix2 r i)) (fun i => ado (ix2 r i)) team k := by
  unfold Spec.feat
  split
  · rename_i h
    exact concatenate_apply_piece (t := S1024x73) (1 : Fin 2) [⟨S1024x48, ego⟩, ⟨S1024x24, shapeCast S1024x24 ado shapeCasts_S1024x24_S1024x24⟩, ⟨S1024x1, broadcast S1024x1 team⟩]
      concatenates_S1024x48_S1024x24_S1024x1_S1024x73_d1 (ix2 r k) 0 (by simp) S1024x48 ego rfl rfl 0 rfl (ix2 r ⟨k.val, h⟩)
      (fun b hb => by
        match b with
        | ⟨0, _⟩ => rfl
        | ⟨1, _⟩ => exact (hb (Fin.ext rfl)).elim)
      (by show 0 + k.val = k.val; omega)
  · rename_i h
    split
    · rename_i h'
      refine (concatenate_apply_piece (t := S1024x73) (1 : Fin 2) [⟨S1024x48, ego⟩, ⟨S1024x24, shapeCast S1024x24 ado shapeCasts_S1024x24_S1024x24⟩, ⟨S1024x1, broadcast S1024x1 team⟩]
        concatenates_S1024x48_S1024x24_S1024x1_S1024x73_d1 (ix2 r k) 1 (by simp) S1024x24 _ rfl rfl 48 rfl
        (ix2 r ⟨k.val - 48, by omega⟩)
        (fun b hb => by
          match b with
          | ⟨0, _⟩ => rfl
          | ⟨1, _⟩ => exact (hb (Fin.ext rfl)).elim)
        (by show 48 + (k.val - 48) = k.val; omega)).trans ?_
      exact congrFun (shapeCast_self ado _) _
    · rename_i h'
      exact concatenate_apply_piece (t := S1024x73) (1 : Fin 2) [⟨S1024x48, ego⟩, ⟨S1024x24, shapeCast S1024x24 ado shapeCasts_S1024x24_S1024x24⟩, ⟨S1024x1, broadcast S1024x1 team⟩]
        concatenates_S1024x48_S1024x24_S1024x1_S1024x73_d1 (ix2 r k) 2 (by simp) S1024x1 _ rfl rfl 72 rfl
        (ix2 r (0 : Fin 1))
        (fun b hb => by
          match b with
          | ⟨0, _⟩ => rfl
          | ⟨1, _⟩ => exact (hb (Fin.ext rfl)).elim)
        (by show 72 + 0 = k.val; have := k.isLt; omega)

/-- The first layer at (r, h). -/
theorem hid1_apply (ego : FVec Ideal S1024x48 .f32) (w1 : FVec Ideal S73x256 .bf16) (b1 : Vec Ideal S256 .f32)
    (ado : Vec Ideal S1024x24 .f32) (team : Ideal .f32) (r : Fin 1024) (h : Fin 256) :
    hid1 ego w1 b1 ado team (ix2 r h)
      = Spec.lin (Spec.feat (fun i => ego (ix2 r i)) (fun i => ado (ix2 r i)) team) w1 b1 h := by
  unfold hid1 Spec.lin
  rw [addf_apply, broadcastTo_1b_ab_apply, shapeCast_a_1a_apply]
  refine congrArg (· + b1 (ix1 h)) ?_
  refine (LibPlainDot.matmul_zero_apply 1024 73 256 none _ w1 (ix2 r h)).trans ?_
  exact Finset.sum_congr rfl fun k _ => congrArg (· * w1 (ix2 k h)) (feat_apply ego ado team r k)

/-- A row sum kept as a column, at (r, 0): the sum of row r. -/
theorem rowSum_apply (v : FVec Ideal S1024x256 .f32) (r : Fin 1024) (u : Fin 1) :
    rowSum v (ix2 r u) = ∑ k : Fin 256, v (ix2 r k) := by
  unfold rowSum
  rw [Keepdims.shapeCast_a_a1_apply]
  exact Keepdims.laneSum_apply v _ _ _ r

/-- The row mean kept as a column, at (r, 0): the mean of row r. -/
theorem rowMean_apply (v : FVec Ideal S1024x256 .f32) (r : Fin 1024) (u : Fin 1) :
    rowMean v (ix2 r u) = Spec.mean (fun k => v (ix2 r k)) := by
  unfold rowMean Spec.mean
  rw [divf_apply, rowSum_apply]
  rfl

/-- A row less its mean, at (r, h). -/
theorem centered_apply (v : FVec Ideal S1024x256 .f32) (r : Fin 1024) (h : Fin 256) :
    centered v (ix2 r h) = Spec.cen (fun k => v (ix2 r k)) h := by
  unfold centered Spec.cen
  rw [subf_apply, Keepdims.broadcastTo_a1_ab_apply, rowMean_apply]

/-- Normalisation, scale, shift and tanh of a row that is already centred, at (r, h). -/
theorem normAct_apply (d : FVec Ideal S1024x256 .f32) (g b : Vec Ideal S256 .f32) (r : Fin 1024) (h : Fin 256) :
    normAct d g b (ix2 r h)
      = Ideal.tanh (d (ix2 r h) * Ideal.rsqrt (Spec.mean (fun k => d (ix2 r k) * d (ix2 r k)) + Ideal.ofBits .f32 0x3727C5AC#32)
          * g (ix1 h) + b (ix1 h)) := by
  unfold normAct
  change Ideal.tanh ((addf _ _ : FVec Ideal S1024x256 .f32) (ix2 r h)) = _
  rw [addf_apply, mulf_apply, mulf_apply, Keepdims.broadcastTo_a1_ab_apply, broadcastTo_1b_ab_apply, broadcastTo_1b_ab_apply,
    shapeCast_a_1a_apply, shapeCast_a_1a_apply]
  change Ideal.tanh (d (ix2 r h) * Ideal.rsqrt ((addf (rowMean (mulf d d)) _ : FVec Ideal S1024x1 .f32) (ix2 r (0 : Fin 1))) * g (ix1 h) + b (ix1 h)) = _
  rw [addf_apply, rowMean_apply]
  rfl

/-- Centring, normalisation and tanh of a row, at (r, h). -/
theorem act_apply (v : FVec Ideal S1024x256 .f32) (g b : Vec Ideal S256 .f32) (r : Fin 1024) (h : Fin 256) :
    normAct (centered v) g b (ix2 r h) = Spec.act (fun k => v (ix2 r k)) g b h := by
  rw [normAct_apply]
  unfold Spec.act
  simp only [centered_apply]

/-- The second layer at (r, j). -/
theorem hid2_apply (a : FVec Ideal S1024x256 .f32) (w2 : FVec Ideal S256x256 .bf16) (b2 : Vec Ideal S256 .f32)
    (r : Fin 1024) (j : Fin 256) :
    hid2 a w2 b2 (ix2 r j) = Spec.lin (fun k => a (ix2 r k)) w2 b2 j := by
  unfold hid2 Spec.lin
  rw [addf_apply, broadcastTo_1b_ab_apply, shapeCast_a_1a_apply]
  refine congrArg (· + b2 (ix1 j)) ?_
  exact LibPlainDot.matmul_zero_apply 1024 256 256 none _ w2 (ix2 r j)

/-- The exponential linear unit, entry by entry. -/
theorem eluV_apply (h : FVec Ideal S1024x256 .f32) (i : S1024x256.Idx) : eluV h i = Spec.elu (h i) := rfl

/-- The third layer at (r, o). -/
theorem outL_apply (e : FVec Ideal S1024x256 .f32) (w3 : FVec Ideal S256x64 .bf16) (b3 : Vec Ideal S64 .f32)
    (r : Fin 1024) (o : Fin 64) :
    outL e w3 b3 (ix2 r o) = Spec.lin (fun k => e (ix2 r k)) w3 b3 o := by
  unfold outL Spec.lin
  rw [addf_apply, broadcastTo_1b_ab_apply, shapeCast_a_1a_apply]
  refine congrArg (· + b3 (ix1 o)) ?_
  exact LibPlainDot.matmul_zero_apply 1024 256 64 none _ w3 (ix2 r o)

/-- One neighbour's result at (r, o): the row network of the neighbour's feature row. -/
theorem nbr_apply (ego : FVec Ideal S1024x48 .f32) (w1 : FVec Ideal S73x256 .bf16) (b1 g b : Vec Ideal S256 .f32)
    (w2 : FVec Ideal S256x256 .bf16) (b2 : Vec Ideal S256 .f32) (w3 : FVec Ideal S256x64 .bf16) (b3 : Vec Ideal S64 .f32)
    (ado : Vec Ideal S1024x24 .f32) (team : Ideal .f32) (r : Fin 1024) (o : Fin 64) :
    nbr ego w1 b1 g b w2 b2 w3 b3 ado team (ix2 r o)
      = Spec.rowOut (Spec.feat (fun i => ego (ix2 r i)) (fun i => ado (ix2 r i)) team) w1 b1 g b w2 b2 w3 b3 o := by
  unfold nbr Spec.rowOut
  rw [outL_apply]
  refine congrArg (fun f => Spec.lin f w3 b3 o) (funext fun k => ?_)
  rw [eluV_apply, hid2_apply]
  refine congrArg Spec.elu (congrArg (fun f => Spec.lin f w2 b2 k) (funext fun h => ?_))
  rw [act_apply]
  exact congrArg (fun f => Spec.act f g b h) (funext fun i => hid1_apply ego w1 b1 ado team r i)

/-- The stored block at (r, o): the float zero plus the seven neighbours' row networks at output `o`, in order. -/
theorem total_apply (ego : Vec Ideal S1024x48 .f32) (a0 a1 a2 a3 a4 a5 a6 : Vec Ideal S1024x24 .f32)
    (w1 : Vec Ideal S73x256 .bf16) (b1 g b : Vec Ideal S256 .f32) (w2 : Vec Ideal S256x256 .bf16) (b2 : Vec Ideal S256 .f32)
    (w3 : Vec Ideal S256x64 .bf16) (b3 : Vec Ideal S64 .f32) (r : Fin 1024) (o : Fin 64) :
    total ego a0 a1 a2 a3 a4 a5 a6 w1 b1 g b w2 b2 w3 b3 (ix2 r o)
      = Ideal.ofBits .f32 0x00000000#32
        + Spec.rowOut (Spec.feat (fun i => ego (ix2 r i)) (fun i => a0 (ix2 r i)) (Ideal.ofBits .f32 0x00000000#32)) w1 b1 g b w2 b2 w3 b3 o
        + Spec.rowOut (Spec.feat (fun i => ego (ix2 r i)) (fun i => a1 (ix2 r i)) (Ideal.ofBits .f32 0x00000000#32)) w1 b1 g b w2 b2 w3 b3 o
        + Spec.rowOut (Spec.feat (fun i => ego (ix2 r i)) (fun i => a2 (ix2 r i)) (Ideal.ofBits .f32 0x00000000#32)) w1 b1 g b w2 b2 w3 b3 o
        + Spec.rowOut (Spec.feat (fun i => ego (ix2 r i)) (fun i => a3 (ix2 r i)) (Ideal.ofBits .f32 0x3F800000#32)) w1 b1 g b w2 b2 w3 b3 o
        + Spec.rowOut (Spec.feat (fun i => ego (ix2 r i)) (fun i => a4 (ix2 r i)) (Ideal.ofBits .f32 0x3F800000#32)) w1 b1 g b w2 b2 w3 b3 o
        + Spec.rowOut (Spec.feat (fun i => ego (ix2 r i)) (fun i => a5 (ix2 r i)) (Ideal.ofBits .f32 0x3F800000#32)) w1 b1 g b w2 b2 w3 b3 o
        + Spec.rowOut (Spec.feat (fun i => ego (ix2 r i)) (fun i => a6 (ix2 r i)) (Ideal.ofBits .f32 0x3F800000#32)) w1 b1 g b w2 b2 w3 b3 o := by
  unfold total
  simp only [shapeCast_self, addf_apply, nbr_apply]
  rfl

end Cert.KernelIdeal.Stage

end
-- ==== Proof.Layout.lean ====
/-
  The neighbours' features, re-laid.

  A batch row of the observations holds 48 ego features and then 24 × 7 neighbour features, feature-major: entry
  48 + 7·i + n is feature `i` of neighbour `n`. Cutting off the first 48 columns, reading the remaining 168 as
  24 × 7 and exchanging the last two axes gives the array whose entry (R, n, i) is that feature; reading it again as
  168 columns puts feature `i` of neighbour `n` at column 24·n + i.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- Entry (R, n, i) of the transposed array is observation column 48 + 7·i + n of row R. -/
theorem byNeighbour_apply (obs : (⟨2, ![16384, 216]⟩ : Shape).Idx → α)
    (hs : (⟨2, ![16384, 216]⟩ : Shape).Slices ![0, 48] ⟨2, ![16384, 168]⟩)
    (hc : (⟨2, ![16384, 168]⟩ : Shape).ShapeCasts ⟨3, ![16384, 24, 7]⟩)
    (ht : (⟨3, ![16384, 24, 7]⟩ : Shape).Transposes [0, 2, 1] ⟨3, ![16384, 7, 24]⟩)
    (R : Fin 16384) (n : Fin 7) (i : Fin 24) :
    transpose ⟨3, ![16384, 7, 24]⟩ [0, 2, 1]
        (shapeCast ⟨3, ![16384, 24, 7]⟩ (extractStridedSlice ⟨2, ![16384, 168]⟩ ![0, 48] obs hs) hc) ht (ix3 R n i)
      = obs (ix2 R ⟨48 + i.val * 7 + n.val, by have := i.isLt; have := n.isLt; omega⟩) := by
  refine (transpose_apply [0, 2, 1] _ ht (ix3 R n i) (ix3 R i n) (fun b => ?_)).trans ?_
  · match b with
    | ⟨0, _⟩ => rfl
    | ⟨1, _⟩ => rfl
    | ⟨2, _⟩ => rfl
  refine (shapeCast_apply _ hc (ix3 R i n) (ix2 R ⟨i.val * 7 + n.val, by have := i.isLt; have := n.isLt; omega⟩) ?_).trans ?_
  · rw [Shape.rowMajor_val_two, Shape.rowMajor_val_three]
    show R.val * 168 + (i.val * 7 + n.val) = (R.val * 24 + i.val) * 7 + n.val
    omega
  exact slice2_axis1_apply 48 obs hs R _ _ (by show 48 + i.val * 7 + n.val = 48 + (i.val * 7 + n.val); omega)

/-- Read again as 168 columns, column 24·n + i of row R is that entry. -/
theorem flat_apply (x : (⟨3, ![16384, 7, 24]⟩ : Shape).Idx → α)
    (h : (⟨3, ![16384, 7, 24]⟩ : Shape).ShapeCasts ⟨2, ![16384, 168]⟩)
    (R : Fin 16384) (n : Fin 7) (i : Fin 24) (q : Fin 168) (hq : q.val = 24 * n.val + i.val) :
    shapeCast ⟨2, ![16384, 168]⟩ x h (ix2 R q) = x (ix3 R n i) :=
  shapeCast_apply x h _ _ (by
    rw [Shape.rowMajor_val_two, Shape.rowMajor_val_three]
    show (R.val * 7 + n.val) * 24 + i.val = R.val * 168 + q.val
    omega)

/-- The first 48 columns of row R are the observation's. -/
theorem ego_apply (obs : (⟨2, ![16384, 216]⟩ : Shape).Idx → α)
    (hs : (⟨2, ![16384, 216]⟩ : Shape).Slices ![0, 0] ⟨2, ![16384, 48]⟩) (R : Fin 16384) (i : Fin 48) :
    extractStridedSlice ⟨2, ![16384, 48]⟩ ![0, 0] obs hs (ix2 R i)
      = obs (ix2 R ⟨i.val, by have := i.isLt; omega⟩) :=
  slice2_axis1_apply 0 obs hs R i _ (by show i.val = 0 + i.val; omega)

end Cert.Layout
-- ==== Proof.KBlocks.lean ====
/-
  From the blocks to the array of the 64 sums.

  The grid has sixteen points; point `t` works on batch rows 1024·t … 1024·t + 1023. The ego window hands it those rows
  of the first 48 observation columns, the neighbours' window those rows of the re-laid 168 columns (column group n
  holds neighbour n's 24 features), the weight and bias windows the whole arrays (the weights converted to a narrower
  float format, which changes nothing on the extended reals). The block the point writes back is therefore rows
  1024·t … of one array: per batch row, the seven neighbours' row networks added to zero. The sixteen blocks tile the
  output array, so after the region the array is that function of the arguments.
-/
import proofs.«178341_j24919400252111_1_alg».proof.Proof.KRead
import proofs.«178341_j24919400252111_1_alg».proof.Proof.Layout
import Idealize.ShloMosaic.Lib.StableHlo.Run
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Stage

variable (m : (ℓ : Loc nD τ sig) → Buf (Elt Ideal) ℓ) (ρ : Dev nD → PrngReg)

/-! ## The arrays the region finds -/

/-- The ego array: the first 48 observation columns. -/
theorem V_v0 (c : Dev nD) : (V m c main_v0 : S16384x48.Idx → EReal)
    = extractStridedSlice S16384x48 ![0, 0] (m ((c : Thread nD τ).loc main_arg0)) slices_S16384x216_S16384x48_0_0 := by
  show StableHlo.after hostOps0 (fun b => m (c, b)) (Proc.devRef .tc main_v0) = _
  after_results <;> rfl

/-- The neighbours' array: the remaining 168 columns read as 24 × 7, the last two axes exchanged, read as 168 columns. -/
theorem V_v4 (c : Dev nD) : (V m c main_v4 : S16384x168.Idx → EReal)
    = shapeCast S16384x168 (transpose S16384x7x24 [0, 2, 1]
        (shapeCast S16384x24x7 (extractStridedSlice S16384x168 ![0, 48] (m ((c : Thread nD τ).loc main_arg0))
          slices_S16384x216_S16384x168_0_48) shapeCasts_S16384x168_S16384x24x7)
        transposes_S16384x24x7_S16384x7x24_0_2_1) shapeCasts_S16384x7x24_S16384x168 := by
  show StableHlo.after hostOps0 (fun b => m (c, b)) (Proc.devRef .tc main_v4) = _
  after_results <;> rfl

/-- The three weight arrays in the narrower format are, on the extended reals, the weight arrays. -/
theorem V_v5 (c : Dev nD) : (V m c main_v5 : S73x256.Idx → EReal) = m ((c : Thread nD τ).loc main_arg1) := by
  show StableHlo.after hostOps0 (fun b => m (c, b)) (Proc.devRef .tc main_v5) = _
  after_results <;> rfl
theorem V_v6 (c : Dev nD) : (V m c main_v6 : S256x256.Idx → EReal) = m ((c : Thread nD τ).loc main_arg5) := by
  show StableHlo.after hostOps0 (fun b => m (c, b)) (Proc.devRef .tc main_v6) = _
  after_results <;> rfl
theorem V_v7 (c : Dev nD) : (V m c main_v7 : S256x64.Idx → EReal) = m ((c : Thread nD τ).loc main_arg7) := by
  show StableHlo.after hostOps0 (fun b => m (c, b)) (Proc.devRef .tc main_v7) = _
  after_results <;> rfl

/-- Column 24·n + i of the neighbours' array is feature `i` of neighbour `n`: observation column 48 + 7·i + n. -/
theorem ado_arr (c : Dev nD) (R : Fin 16384) (n : Fin 7) (i : Fin 24) (q : Fin 168) (hq : q.val = 24 * n.val + i.val) :
    V m c main_v4 (ix2 R q)
      = m ((c : Thread nD τ).loc main_arg0) (ix2 R ⟨48 + i.val * 7 + n.val, by have := i.isLt; have := n.isLt; omega⟩) := by
  rw [V_v4]
  exact (Layout.flat_apply _ _ R n i q hq).trans (Layout.byNeighbour_apply _ _ _ _ R n i)

/-! ## The index maps over the grid -/

/-- The block index of every window at every point, decided over the sixteen points: the three batch-tiled windows
    follow the point, every other window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_3.index t (0 : Fin 1) = 0 ∧ win0_4.index t (0 : Fin 1) = 0 ∧ win0_5.index t (0 : Fin 1) = 0
    ∧ win0_7.index t (0 : Fin 1) = 0 ∧ win0_9.index t (0 : Fin 1) = 0 :=
  (by decide +kernel : ∀ t : Fin grid0.N, _)

/-- The batch row that row `r` of point `t`'s blocks is. -/
def rowOf (t : Fin cfg0.N) (r : Fin 1024) : Fin 16384 :=
  ⟨t.val * 1024 + r.val, by have := t.isLt; have h : cfg0.N = 16 := N_0; have := r.isLt; omega⟩

/-! ## The blocks at a point -/

/-- The ego block at point `t`: rows 1024·t … of the first 48 observation columns. -/
theorem ego_blk (c : Dev nD) (t : Fin cfg0.N) :
    (iblk m c 0 t : S1024x48.Idx → EReal)
      = fun y => m ((c : Thread nD τ).loc main_arg0) (ix2 (rowOf t (y 0)) ⟨(y 1).val, by have h : (y 1).val < 48 := (y 1).isLt; omega⟩) := by
  funext y
  obtain ⟨e0, e1, -⟩ := idx_facts t
  show V m c main_v0 (((cfg0.win 0).blk t).view.emb y) = _
  refine (congrArg (V m c main_v0) (?_ : _ = ix2 (rowOf t (y 0)) (y 1))).trans ?_
  · funext a; apply Fin.ext
    match a with
    | ⟨0, _⟩ =>
      show win0_0.index t (0 : Fin 2) * 1024 + 1 * (y 0).val = t.val * 1024 + (y 0).val
      rw [e0]; omega
    | ⟨1, _⟩ =>
      show win0_0.index t (1 : Fin 2) * 48 + 1 * (y 1).val = (y 1).val
      rw [e1]; omega
  rw [V_v0]
  exact Layout.ego_apply _ _ (rowOf t (y 0)) (y 1)

/-- Column group 0 of the neighbours' block at point `t`: feature `i` of neighbour 0 in row (r of block t). -/
theorem ado_blk0 (c : Dev nD) (t : Fin cfg0.N) :
    (View.ld (iblk m c 1 t) r0_6 : S1024x24.Idx → EReal)
      = fun y => m ((c : Thread nD τ).loc main_arg0) (ix2 (rowOf t (y 0)) ⟨48 + (y 1).val * 7 + 0, by have h : (y 1).val < 24 := (y 1).isLt; omega⟩) := by
  funext y
  obtain ⟨-, -, e0, e1, -⟩ := idx_facts t
  show V m c main_v4 (((cfg0.win 1).blk t).view.emb (r0_6.emb y)) = _
  refine (congrArg (V m c main_v4) (?_ : _ = ix2 (rowOf t (y 0)) (⟨0 + (y 1).val, by have h : (y 1).val < 24 := (y 1).isLt; omega⟩ : Fin 168))).trans
    (ado_arr m c (rowOf t (y 0)) (⟨0, by omega⟩ : Fin 7) (y 1) _ (by show 0 + (y 1).val = 24 * 0 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (0 + 1 * (y 1).val) = 0 + (y 1).val
    rw [e1]; omega

/-- Column group 1 of the neighbours' block at point `t`: feature `i` of neighbour 1 in row (r of block t). -/
theorem ado_blk1 (c : Dev nD) (t : Fin cfg0.N) :
    (View.ld (iblk m c 1 t) r0_7 : S1024x24.Idx → EReal)
      = fun y => m ((c : Thread nD τ).loc main_arg0) (ix2 (rowOf t (y 0)) ⟨48 + (y 1).val * 7 + 1, by have h : (y 1).val < 24 := (y 1).isLt; omega⟩) := by
  funext y
  obtain ⟨-, -, e0, e1, -⟩ := idx_facts t
  show V m c main_v4 (((cfg0.win 1).blk t).view.emb (r0_7.emb y)) = _
  refine (congrArg (V m c main_v4) (?_ : _ = ix2 (rowOf t (y 0)) (⟨24 + (y 1).val, by have h : (y 1).val < 24 := (y 1).isLt; omega⟩ : Fin 168))).trans
    (ado_arr m c (rowOf t (y 0)) (⟨1, by omega⟩ : Fin 7) (y 1) _ (by show 24 + (y 1).val = 24 * 1 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (24 + 1 * (y 1).val) = 24 + (y 1).val
    rw [e1]; omega

/-- Column group 2 of the neighbours' block at point `t`: feature `i` of neighbour 2 in row (r of block t). -/
theorem ado_blk2 (c : Dev nD) (t : Fin cfg0.N) :
    (View.ld (iblk m c 1 t) r0_8 : S1024x24.Idx → EReal)
      = fun y => m ((c : Thread nD τ).loc main_arg0) (ix2 (rowOf t (y 0)) ⟨48 + (y 1).val * 7 + 2, by have h : (y 1).val < 24 := (y 1).isLt; omega⟩) := by
  funext y
  obtain ⟨-, -, e0, e1, -⟩ := idx_facts t
  show V m c main_v4 (((cfg0.win 1).blk t).view.emb (r0_8.emb y)) = _
  refine (congrArg (V m c main_v4) (?_ : _ = ix2 (rowOf t (y 0)) (⟨48 + (y 1).val, by have h : (y 1).val < 24 := (y 1).isLt; omega⟩ : Fin 168))).trans
    (ado_arr m c (rowOf t (y 0)) (⟨2, by omega⟩ : Fin 7) (y 1) _ (by show 48 + (y 1).val = 24 * 2 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (48 + 1 * (y 1).val) = 48 + (y 1).val
    rw [e1]; omega

/-- Column group 3 of the neighbours' block at point `t`: feature `i` of neighbour 3 in row (r of block t). -/
theorem ado_blk3 (c : Dev nD) (t : Fin cfg0.N) :
    (View.ld (iblk m c 1 t) r0_9 : S1024x24.Idx → EReal)
      = fun y => m ((c : Thread nD τ).loc main_arg0) (ix2 (rowOf t (y 0)) ⟨48 + (y 1).val * 7 + 3, by have h : (y 1).val < 24 := (y 1).isLt; omega⟩) := by
  funext y
  obtain ⟨-, -, e0, e1, -⟩ := idx_facts t
  show V m c main_v4 (((cfg0.win 1).blk t).view.emb (r0_9.emb y)) = _
  refine (congrArg (V m c main_v4) (?_ : _ = ix2 (rowOf t (y 0)) (⟨72 + (y 1).val, by have h : (y 1).val < 24 := (y 1).isLt; omega⟩ : Fin 168))).trans
    (ado_arr m c (rowOf t (y 0)) (⟨3, by omega⟩ : Fin 7) (y 1) _ (by show 72 + (y 1).val = 24 * 3 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (72 + 1 * (y 1).val) = 72 + (y 1).val
    rw [e1]; omega

/-- Column group 4 of the neighbours' block at point `t`: feature `i` of neighbour 4 in row (r of block t). -/
theorem ado_blk4 (c : Dev nD) (t : Fin cfg0.N) :
    (View.ld (iblk m c 1 t) r0_10 : S1024x24.Idx → EReal)
      = fun y => m ((c : Thread nD τ).loc main_arg0) (ix2 (rowOf t (y 0)) ⟨48 + (y 1).val * 7 + 4, by have h : (y 1).val < 24 := (y 1).isLt; omega⟩) := by
  funext y
  obtain ⟨-, -, e0, e1, -⟩ := idx_facts t
  show V m c main_v4 (((cfg0.win 1).blk t).view.emb (r0_10.emb y)) = _
  refine (congrArg (V m c main_v4) (?_ : _ = ix2 (rowOf t (y 0)) (⟨96 + (y 1).val, by have h : (y 1).val < 24 := (y 1).isLt; omega⟩ : Fin 168))).trans
    (ado_arr m c (rowOf t (y 0)) (⟨4, by omega⟩ : Fin 7) (y 1) _ (by show 96 + (y 1).val = 24 * 4 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (96 + 1 * (y 1).val) = 96 + (y 1).val
    rw [e1]; omega

/-- Column group 5 of the neighbours' block at point `t`: feature `i` of neighbour 5 in row (r of block t). -/
theorem ado_blk5 (c : Dev nD) (t : Fin cfg0.N) :
    (View.ld (iblk m c 1 t) r0_11 : S1024x24.Idx → EReal)
      = fun y => m ((c : Thread nD τ).loc main_arg0) (ix2 (rowOf t (y 0)) ⟨48 + (y 1).val * 7 + 5, by have h : (y 1).val < 24 := (y 1).isLt; omega⟩) := by
  funext y
  obtain ⟨-, -, e0, e1, -⟩ := idx_facts t
  show V m c main_v4 (((cfg0.win 1).blk t).view.emb (r0_11.emb y)) = _
  refine (congrArg (V m c main_v4) (?_ : _ = ix2 (rowOf t (y 0)) (⟨120 + (y 1).val, by have h : (y 1).val < 24 := (y 1).isLt; omega⟩ : Fin 168))).trans
    (ado_arr m c (rowOf t (y 0)) (⟨5, by omega⟩ : Fin 7) (y 1) _ (by show 120 + (y 1).val = 24 * 5 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (120 + 1 * (y 1).val) = 120 + (y 1).val
    rw [e1]; omega

/-- Column group 6 of the neighbours' block at point `t`: feature `i` of neighbour 6 in row (r of block t). -/
theorem ado_blk6 (c : Dev nD) (t : Fin cfg0.N) :
    (View.ld (iblk m c 1 t) r0_12 : S1024x24.Idx → EReal)
      = fun y => m ((c : Thread nD τ).loc main_arg0) (ix2 (rowOf t (y 0)) ⟨48 + (y 1).val * 7 + 6, by have h : (y 1).val < 24 := (y 1).isLt; omega⟩) := by
  funext y
  obtain ⟨-, -, e0, e1, -⟩ := idx_facts t
  show V m c main_v4 (((cfg0.win 1).blk t).view.emb (r0_12.emb y)) = _
  refine (congrArg (V m c main_v4) (?_ : _ = ix2 (rowOf t (y 0)) (⟨144 + (y 1).val, by have h : (y 1).val < 24 := (y 1).isLt; omega⟩ : Fin 168))).trans
    (ado_arr m c (rowOf t (y 0)) (⟨6, by omega⟩ : Fin 7) (y 1) _ (by show 144 + (y 1).val = 24 * 6 + (y 1).val; omega))
  funext a; apply Fin.ext
  match a with
  | ⟨0, _⟩ =>
    show win0_1.index t (0 : Fin 2) * 1024 + 1 * (0 + 1 * (y 0).val) = t.val * 1024 + (y 0).val
    rw [e0]; omega
  | ⟨1, _⟩ =>
    show win0_1.index t (1 : Fin 2) * 168 + 1 * (144 + 1 * (y 1).val) = 144 + (y 1).val
    rw [e1]; omega

/-- A window over a whole array at block zero hands every point the array. -/
theorem w1_blk (c : Dev nD) (t : Fin cfg0.N) : (iblk m c 2 t : S73x256.Idx → EReal) = m ((c : Thread nD τ).loc main_arg1) := by
  funext y
  obtain ⟨-, -, -, -, -, -, h0, h1, -⟩ := idx_facts t
  show V m c main_v5 (((cfg0.win 2).blk t).view.emb y) = _
  rw [V_v5]
  refine congrArg _ (funext fun a => Fin.ext ?_)
  match a with
  | ⟨0, _⟩ =>
    show win0_2.index t (0 : Fin 2) * 73 + 1 * (y 0).val = (y 0).val
    rw [h0]; omega
  | ⟨1, _⟩ =>
    show win0_2.index t (1 : Fin 2) * 256 + 1 * (y 1).val = (y 1).val
    rw [h1]; omega
theorem w2_blk (c : Dev nD) (t : Fin cfg0.N) : (iblk m c 6 t : S256x256.Idx → EReal) = m ((c : Thread nD τ).loc main_arg5) := by
  funext y
  obtain ⟨-, -, -, -, -, -, -, -, h0, h1, -⟩ := idx_facts t
  show V m c main_v6 (((cfg0.win 6).blk t).view.emb y) = _
  rw [V_v6]
  refine congrArg _ (funext fun a => Fin.ext ?_)
  match a with
  | ⟨0, _⟩ =>
    show win0_6.index t (0 : Fin 2) * 256 + 1 * (y 0).val = (y 0).val
    rw [h0]; omega
  | ⟨1, _⟩ =>
    show win0_6.index t (1 : Fin 2) * 256 + 1 * (y 1).val = (y 1).val
    rw [h1]; omega
theorem w3_blk (c : Dev nD) (t : Fin cfg0.N) : (iblk m c 8 t : S256x64.Idx → EReal) = m ((c : Thread nD τ).loc main_arg7) := by
  funext y
  obtain ⟨-, -, -, -, -, -, -, -, -, -, h0, h1, -⟩ := idx_facts t
  show V m c main_v7 (((cfg0.win 8).blk t).view.emb y) = _
  rw [V_v7]
  refine congrArg _ (funext fun a => Fin.ext ?_)
  match a with
  | ⟨0, _⟩ =>
    show win0_8.index t (0 : Fin 2) * 256 + 1 * (y 0).val = (y 0).val
    rw [h0]; omega
  | ⟨1, _⟩ =>
    show win0_8.index t (1 : Fin 2) * 64 + 1 * (y 1).val = (y 1).val
    rw [h1]; omega
theorem b1_blk (c : Dev nD) (t : Fin cfg0.N) : (iblk m c 3 t : S256.Idx → EReal) = m ((c : Thread nD τ).loc main_arg2) := by
  funext y
  have h0 := (idx_facts t).2.2.2.2.2.2.2.2.2.2.2.2.1
  show V m c main_arg2 (((cfg0.win 3).blk t).view.emb y) = _
  rw [V_main_arg2]
  refine congrArg _ (funext fun a => Fin.ext ?_)
  match a with
  | ⟨0, _⟩ =>
    show win0_3.index t (0 : Fin 1) * 256 + 1 * (y 0).val = (y 0).val
    rw [h0]; omega
theorem g_blk (c : Dev nD) (t : Fin cfg0.N) : (iblk m c 4 t : S256.Idx → EReal) = m ((c : Thread nD τ).loc main_arg3) := by
  funext y
  have h0 := (idx_facts t).2.2.2.2.2.2.2.2.2.2.2.2.2.1
  show V m c main_arg3 (((cfg0.win 4).blk t).view.emb y) = _
  rw [V_main_arg3]
  refine congrArg _ (funext fun a => Fin.ext ?_)
  match a with
  | ⟨0, _⟩ =>
    show win0_4.index t (0 : Fin 1) * 256 + 1 * (y 0).val = (y 0).val
    rw [h0]; omega
theorem b_blk (c : Dev nD) (t : Fin cfg0.N) : (iblk m c 5 t : S256.Idx → EReal) = m ((c : Thread nD τ).loc main_arg4) := by
  funext y
  have h0 := (idx_facts t).2.2.2.2.2.2.2.2.2.2.2.2.2.2.1
  show V m c main_arg4 (((cfg0.win 5).blk t).view.emb y) = _
  rw [V_main_arg4]
  refine congrArg _ (funext fun a => Fin.ext ?_)
  match a with
  | ⟨0, _⟩ =>
    show win0_5.index t (0 : Fin 1) * 256 + 1 * (y 0).val = (y 0).val
    rw [h0]; omega
theorem b2_blk (c : Dev nD) (t : Fin cfg0.N) : (iblk m c 7 t : S256.Idx → EReal) = m ((c : Thread nD τ).loc main_arg6) := by
  funext y
  have h0 := (idx_facts t).2.2.2.2.2.2.2.2.2.2.2.2.2.2.2.1
  show V m c main_arg6 (((cfg0.win 7).blk t).view.emb y) = _
  rw [V_main_arg6]
  refine congrArg _ (funext fun a => Fin.ext ?_)
  match a with
  | ⟨0, _⟩ =>
    show win0_7.index t (0 : Fin 1) * 256 + 1 * (y 0).val = (y 0).val
    rw [h0]; omega
theorem b3_blk (c : Dev nD) (t : Fin cfg0.N) : (iblk m c 9 t : S64.Idx → EReal) = m ((c : Thread nD τ).loc main_arg8) := by
  funext y
  have h0 := (idx_facts t).2.2.2.2.2.2.2.2.2.2.2.2.2.2.2.2
  show V m c main_arg8 (((cfg0.win 9).blk t).view.emb y) = _
  rw [V_main_arg8]
  refine congrArg _ (funext fun a => Fin.ext ?_)
  match a with
  | ⟨0, _⟩ =>
    show win0_9.index t (0 : Fin 1) * 64 + 1 * (y 0).val = (y 0).val
    rw [h0]; omega

/-! ## What a point writes back, the cover, the array -/

theorem hz2 : (![0, 0] : Fin 2 → Nat) = fun _ => 0 := funext fun a => by fin_cases a <;> rfl
theorem hz1 : (![0] : Fin 1 → Nat) = fun _ => 0 := funext fun a => by fin_cases a <;> rfl

/-- The array of the 64 sums, of the argument arrays on core `c`. -/
abbrev sums (c : Dev nD) : S16384x64.Idx → EReal :=
  Spec.latent (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- WHAT POINT `t` WRITES BACK is block `t` of the array of sums. -/
theorem flushed_eq (c : Dev nD) (t : Fin cfg0.N) :
    (dats m 0 c).flushed 10 t = ((cfg0.win 10).blk t).view.read (Elt Ideal) (sums m c) := by
  show (cfg0.win 10).cut (grid0.coords t) ((dats m 0 c).after 10 t) = _
  rw [after0_10, out_eq_total, View.canon_unit_zero hz2]
  simp only [View.ld_unit_zero (S := S1024x48) hz2, View.ld_unit_zero (S := S73x256) hz2, View.ld_unit_zero (S := S256x256) hz2,
    View.ld_unit_zero (S := S256x64) hz2, View.ld_unit_zero (S := S256) hz1, View.ld_unit_zero (S := S64) hz1]
  funext y
  obtain ⟨r, o, rfl⟩ : ∃ (r : Fin 1024) (o : Fin 64), y = ix2 r o := ⟨y 0, y 1, eq_ix2 y⟩
  obtain ⟨-, -, -, -, e0, e1, -⟩ := idx_facts t
  have hj : ((cfg0.win 10).blk t).view.emb (ix2 r o) = (ix2 (rowOf t r) o : S16384x64.Idx) := by
    funext a; apply Fin.ext
    match a with
    | ⟨0, _⟩ =>
      show win0_10.index t (0 : Fin 2) * 1024 + 1 * r.val = t.val * 1024 + r.val
      rw [e0]; omega
    | ⟨1, _⟩ =>
      show win0_10.index t (1 : Fin 2) * 64 + 1 * o.val = o.val
      rw [e1]; omega
  rw [View.read_apply, hj]
  change total (F := Ideal) _ _ _ _ _ _ _ _ _ _ _ _ _ _ _ _ (ix2 r o) = sums m c (ix2 (rowOf t r) o)
  rw [total_apply]
  simp only [ego_blk, ado_blk0, ado_blk1, ado_blk2, ado_blk3, ado_blk4, ado_blk5, ado_blk6, w1_blk, w2_blk, w3_blk, b1_blk, g_blk,
    b_blk, b2_blk, b3_blk]
  rfl

/-- An index of the array is in point `t`'s block iff each coordinate is in the block's range on its axis. -/
theorem mem_blk (t : Fin cfg0.N) (i : S16384x64.Idx) :
    i ∈ ((cfg0.win 10).blk t).view.set ↔ ∀ a : Fin 2, win0_10.index t a * S1024x64.size a ≤ (i a).val
      ∧ (i a).val < win0_10.index t a * S1024x64.size a + S1024x64.size a := by
  show i ∈ ((View.whole main_v8).slice (win0_10.rect t)).set ↔ _
  rw [View.set_slice_whole, Rect.mem_set_unit]
  exact Iff.rfl

/-- Every index of the array is in the block of the point its batch row belongs to. -/
theorem cover (i : S16384x64.Idx) :
    ∃ t : Fin cfg0.N, (cfg0.win 10).flush t = true ∧ i ∈ ((cfg0.win 10).blk t).view.set := by
  have hi0 : (i 0).val < 16384 := (i 0).isLt
  have hi1 : (i 1).val < 64 := (i 1).isLt
  have hN : cfg0.N = 16 := N_0
  let t : Fin cfg0.N := ⟨(i 0).val / 1024, by omega⟩
  obtain ⟨-, -, -, -, e0, e1, -⟩ := idx_facts t
  refine ⟨t, flush0_10 t, ?_⟩
  rw [mem_blk]
  intro a
  match a with
  | ⟨0, _⟩ =>
    show win0_10.index t (0 : Fin 2) * 1024 ≤ (i 0).val ∧ (i 0).val < win0_10.index t (0 : Fin 2) * 1024 + 1024
    rw [e0]; show (i 0).val / 1024 * 1024 ≤ (i 0).val ∧ (i 0).val < (i 0).val / 1024 * 1024 + 1024; omega
  | ⟨1, _⟩ =>
    show win0_10.index t (1 : Fin 2) * 64 ≤ (i 1).val ∧ (i 1).val < win0_10.index t (1 : Fin 2) * 64 + 64
    rw [e1]; omega

/-- THE ARRAY after the region: the array of sums. -/
theorem final (c : Dev nD) : (dats m 0 c).arrAt 10 cfg0.N = sums m c :=
  (dats m 0 c).arrAt_eq_of_cover 10 (sums m c) (fun t _ => flushed_eq m c t) cover

end Cert.KernelIdeal.Blocks

end
-- ==== Proof.KRun.lean ====
/-
  The kernel program's run, with its result named.

  After the region the program puts the ego columns in front of the array of sums. The ego array is an input of the
  region, so it ends as the region found it: the first 48 observation columns. The array of sums is what the sixteen
  points wrote. The argument arrays end unchanged.
-/
import proofs.«178341_j24919400252111_1_alg».proof.Proof.KBlocks

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result array on core `c`: the first 48 observation columns, then the 64 sums. -/
def out (c : Dev nD) : S16384x112.Idx → EReal :=
  concatenate S16384x112 1
    [⟨S16384x48, extractStridedSlice S16384x48 ![0, 0] (m ((c : Thread nD τ).loc main_arg0)) slices_S16384x216_S16384x48_0_0⟩,
      ⟨S16384x64, sums m c⟩] concatenates_S16384x48_S16384x64_S16384x112_d1

/-- What the operation after the region leaves in the result buffer. -/
theorem tail_eq (c : Dev nD) :
    (Pipeline.afterTail₀ cfgs (dats m) 0 (V0 m) [hostOps1] c main_v9 : S16384x112.Idx → EReal) = out m c := by
  unfold Pipeline.afterTail₀ out
  show StableHlo.after hostOps1 _ (Proc.devRef .tc main_v9) = _
  after_results
  refine congrArg₂ (fun a b => concatenate S16384x112 1 [⟨S16384x48, a⟩, ⟨S16384x64, b⟩]
    concatenates_S16384x48_S16384x64_S16384x112_d1) ?_ ?_
  · exact (Pipeline.withArrays_arr spec0 launch0.win.arr_inj c _ _ 0).trans
      (((dats m 0 c).arrAt_in 0 rfl _).trans ((A_eq m c 0).trans (V_v0 m c)))
  · exact (Pipeline.withArrays_arr spec0 launch0.win.arr_inj c _ _ 10).trans (final m c)

/-- Every weakly fair execution of the kernel program terminates with the result buffer at `out` and the argument
    arrays unchanged. -/
theorem run : θ_run defs (onTc (τ := τ) (main (F := Ideal))) ⟨m, fun _ => 0, ρ⟩ fun r => ∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v9 (Pipeline.mem_restRefs_of main_v9 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c)))⟩)
    (run_main m ρ)

end Cert.KernelIdeal.Blocks

end
-- ==== Proof.RRun.lean ====
/-
  The reference program's run, read back.

  The reference is a straight line of host operations; the exponential linear unit and the two selections inside it
  are functions of its own that the program calls, and their operations are listed here at the place of the call,
  over the buffers of that call. Every fair execution ends with each buffer at the composition of the operations
  that produced it. The composition is written in stages: the feature array [batch, neighbour, 73], the first layer,
  the row mean kept as a unit axis, the centred row, the normalised row through tanh, the second layer, the
  exponential linear unit, the third layer, the sum over the neighbours, and the ego columns put in front.
-/
import proofs.«178341_j24919400252111_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The team numbers of the seven neighbours. -/
def teams : FVec F S7 .f32 := fun i => FloatOps.ofBits .f32 (lit0 (S7.rowMajor i))

/-- The ego columns. -/
def ego (obs : FVec F S16384x216 .f32) : FVec F S16384x48 .f32 :=
  extractStridedSlice S16384x48 ![0, 0] obs slices_S16384x216_S16384x48_0_0

/-- The feature array: per batch row and neighbour, the ego features, the neighbour's features, the team number. -/
def feats (obs : FVec F S16384x216 .f32) : FVec F S16384x7x73 .f32 :=
  concatenate S16384x7x73 2
    [⟨S16384x7x48, broadcastInDim S16384x7x48 ![0, 1, 2] bcast_S16384x1x48_S16384x7x48_0_1_2
        (broadcastInDim S16384x1x48 ![0, 2] bcast_S16384x48_S16384x1x48_0_2 (ego obs))⟩,
      ⟨S16384x7x24, transpose S16384x7x24 [0, 2, 1]
        (shapeCast S16384x24x7 (extractStridedSlice S16384x168 ![0, 48] obs slices_S16384x216_S16384x168_0_48)
          shapeCasts_S16384x168_S16384x24x7) transposes_S16384x24x7_S16384x7x24_0_2_1⟩,
      ⟨S16384x7x1, broadcastInDim S16384x7x1 ![0, 1, 2] bcast_S1x7x1_S16384x7x1_0_1_2
        (broadcastInDim S1x7x1 ![1] bcast_S7_S1x7x1_1 (teams (F := F)))⟩]
    concatenates_S16384x7x48_S16384x7x24_S16384x7x1_S16384x7x73_d2

/-- A row of 256 repeated over batch rows and neighbours. -/
def row256 (b : FVec F S256 .f32) : FVec F S16384x7x256 .f32 :=
  broadcastInDim S16384x7x256 ![0, 1, 2] bcast_S1x1x256_S16384x7x256_0_1_2 (broadcastInDim S1x1x256 ![2] bcast_S256_S1x1x256_2 b)

/-- A row of 64 repeated over batch rows and neighbours. -/
def row64 (b : FVec F S64 .f32) : FVec F S16384x7x64 .f32 :=
  broadcastInDim S16384x7x64 ![0, 1, 2] bcast_S1x1x64_S16384x7x64_0_1_2 (broadcastInDim S1x1x64 ![2] bcast_S64_S1x1x64_2 b)

/-- The first layer. -/
def lay1 (obs : FVec F S16384x216 .f32) (W1 : FVec F S73x256 .f32) (b1 : FVec F S256 .f32) : FVec F S16384x7x256 .f32 :=
  addf (Host.dotGeneral dot_S16384x7x73_S73x256_S16384x7x256_2_0_01_1_n_n none (feats obs) W1) (row256 b1)

/-- The mean over the last axis, kept as a unit axis. -/
def meanCol (v : FVec F S16384x7x256 .f32) : FVec F S16384x7x1 .f32 :=
  Host.divf (broadcastInDim S16384x7x1 ![0, 1] bcast_S16384x7_S16384x7x1_0_1
      (Host.reduceAdd v (constant S_ .f32 0x00000000#32) reducesTo_S16384x7x256_S16384x7_d2 h_S_))
    (broadcastInDim S16384x7x1 ![] bcast_S_S16384x7x1 (constant S_ .f32 0x43800000#32))

/-- A unit last axis repeated 256 times. -/
def spread (x : FVec F S16384x7x1 .f32) : FVec F S16384x7x256 .f32 :=
  broadcastInDim S16384x7x256 ![0, 1, 2] bcast_S16384x7x1_S16384x7x256_0_1_2 x

/-- Every row less its mean. -/
def cent (v : FVec F S16384x7x256 .f32) : FVec F S16384x7x256 .f32 := subf v (spread (meanCol v))

/-- The normalised, scaled and shifted rows through tanh. -/
def act (v : FVec F S16384x7x256 .f32) (g b : FVec F S256 .f32) : FVec F S16384x7x256 .f32 :=
  Host.tanh (addf (mulf (mulf (cent v) (spread (Host.rsqrt (addf (meanCol (mulf (cent v) (cent v)))
      (broadcastInDim S16384x7x1 ![] bcast_S_S16384x7x1 (constant S_ .f32 0x3727C5AC#32)))))) (row256 g)) (row256 b))

/-- The second layer. -/
def lay2 (a : FVec F S16384x7x256 .f32) (W2 : FVec F S256x256 .f32) (b2 : FVec F S256 .f32) : FVec F S16384x7x256 .f32 :=
  addf (Host.dotGeneral dot_S16384x7x256_S256x256_S16384x7x256_2_0_01_1_n_n none a W2) (row256 b2)

/-- A float word repeated over the whole [batch, neighbour, 256] array. -/
def splat (w : BitVec 32) : FVec F S16384x7x256 .f32 :=
  broadcastInDim S16384x7x256 ![] bcast_S_S16384x7x256 (constant S_ .f32 w)

/-- The exponential linear unit as the reference spells it: where the entry is above zero the entry, elsewhere one
    times (the exponential less one) of the entry — the entry replaced by zero where it is above zero. -/
def eluR (h : FVec F S16384x7x256 .f32) : FVec F S16384x7x256 .f32 :=
  select (cmpf .ogt h (splat 0x00000000#32)) h
    (mulf (splat 0x3F800000#32)
      (Host.expm1 (select (cmpf .ogt h (splat 0x00000000#32))
        (broadcastInDim S16384x7x256 ![] bcast_S_S16384x7x256 (id (constant S_ .f32 0x00000000#32))) h)))

/-- The third layer. -/
def lay3 (e : FVec F S16384x7x256 .f32) (W3 : FVec F S256x64 .f32) (b3 : FVec F S64 .f32) : FVec F S16384x7x64 .f32 :=
  addf (Host.dotGeneral dot_S16384x7x256_S256x64_S16384x7x64_2_0_01_1_n_n none e W3) (row64 b3)

/-- The sum over the neighbours. -/
def sumN (v : FVec F S16384x7x64 .f32) : FVec F S16384x64 .f32 :=
  Host.reduceAdd v (constant S_ .f32 0x00000000#32) reducesTo_S16384x7x64_S16384x64_d1 h_S_

/-- The 64 sums of every batch row. -/
def sums (obs : FVec F S16384x216 .f32) (W1 : FVec F S73x256 .f32) (b1 g b : FVec F S256 .f32) (W2 : FVec F S256x256 .f32)
    (b2 : FVec F S256 .f32) (W3 : FVec F S256x64 .f32) (b3 : FVec F S64 .f32) : FVec F S16384x64 .f32 :=
  sumN (lay3 (eluR (lay2 (act (lay1 obs W1 b1) g b) W2 b2)) W3 b3)

/-- The result: the ego columns, then the sums. -/
def result (obs : FVec F S16384x216 .f32) (W1 : FVec F S73x256 .f32) (b1 g b : FVec F S256 .f32) (W2 : FVec F S256x256 .f32)
    (b2 : FVec F S256 .f32) (W3 : FVec F S256x64 .f32) (b3 : FVec F S64 .f32) : FVec F S16384x112 .f32 :=
  concatenate S16384x112 1 [⟨S16384x48, ego obs⟩, ⟨S16384x64, sums obs W1 b1 g b W2 b2 W3 b3⟩]
    concatenates_S16384x48_S16384x64_S16384x112_d1

/-! ## The run -/

/-- The program's 70 operations, in order, the called functions' operations at the calls. -/
abbrev ops : List (HloOp τ sig (Elt F)) :=
  [ StableHlo.nullary main_cst (fun i => FloatOps.ofBits .f32 (lit0 (S7.rowMajor i))),
    StableHlo.unary main_arg0 main_v0 ((extractStridedSlice S16384x48 ![0, 0] · slices_S16384x216_S16384x48_0_0) : (⟨S16384x216, .f32⟩ : BufTy).Contents (Elt F) → (⟨S16384x48, .f32⟩ : BufTy).Contents (Elt F)),
    StableHlo.unary main_arg0 main_v1 ((extractStridedSlice S16384x168 ![0, 48] · slices_S16384x216_S16384x168_0_48) : (⟨S16384x216, .f32⟩ : BufTy).Contents (Elt F) → (⟨S16384x168, .f32⟩ : BufTy).Contents (Elt F)),
    StableHlo.reshape main_v1 main_v2 rfl shapeCasts_S16384x168_S16384x24x7,
    StableHlo.unary main_v2 main_v3 ((transpose S16384x7x24 [0, 2, 1] · transposes_S16384x24x7_S16384x7x24_0_2_1) : (⟨S16384x24x7, .f32⟩ : BufTy).Contents (Elt F) → (⟨S16384x7x24, .f32⟩ : BufTy).Contents (Elt F)),
    StableHlo.unary main_v0 main_v4 (broadcastInDim S16384x1x48 ![0, 2] bcast_S16384x48_S16384x1x48_0_2 : (⟨S16384x48, .f32⟩ : BufTy).Contents (Elt F) → (⟨S16384x1x48, .f32⟩ : BufTy).Contents (Elt F)),
    StableHlo.unary main_v4 main_v5 (broadcastInDim S16384x7x48 ![0, 1, 2] bcast_S16384x1x48_S16384x7x48_0_1_2 : (⟨S16384x1x48, .f32⟩ : BufTy).Contents (Elt F) → (⟨S16384x7x48, .f32⟩ : BufTy).Contents (Elt F)),
    StableHlo.unary main_cst main_v6 (broadcastInDim S1x7x1 ![1] bcast_S7_S1x7x1_1 : (⟨S7, .f32⟩ : BufTy).Contents (Elt F) → (⟨S1x7x1, .f32⟩ : BufTy).Contents (Elt F)),
    StableHlo.unary main_v6 main_v7 (broadcastInDim S16384x7x1 ![0, 1, 2] bcast_S1x7x1_S16384x7x1_0_1_2 : (⟨S1x7x1, .f32⟩ : BufTy).Contents (Elt F) → (⟨S16384x7x1, .f32⟩ : BufTy).Contents (Elt F)),
    StableHlo.nary ![main_v5, main_v3, main_v7] main_v8 (fun u => concatenate S16384x7x73 2 [⟨S16384x7x48, u 0⟩, ⟨S16384x7x24, u 1⟩, ⟨S16384x7x1, u 2⟩] concatenates_S16384x7x48_S16384x7x24_S16384x7x1_S16384x7x73_d2),
    StableHlo.binary main_v8 main_arg1 main_v9 ((fun l r => Host.dotGeneral dot_S16384x7x73_S73x256_S16384x7x256_2_0_01_1_n_n none l r) : (⟨S16384x7x73, .f32⟩ : BufTy).Contents (Elt F) → (⟨S73x256, .f32⟩ : BufTy).Contents (Elt F) → (⟨S16384x7x256, .f32⟩ : BufTy).Contents (Elt F)),
    StableHlo.unary main_arg2 main_v10 (broadcastInDim S1x1x256 ![2] bcast_S256_S1x1x256_2 : (⟨S256, .f32⟩ : BufTy).Contents (Elt F) → (⟨S1x1x256, .f32⟩ : BufTy).Contents (Elt F)),
    StableHlo.unary main_v10 main_v11 (broadcastInDim S16384x7x256 ![0, 1, 2] bcast_S1x1x256_S16384x7x256_0_1_2 : (⟨S1x1x256, .f32⟩ : BufTy).Contents (Elt F) → (⟨S16384x7x256, .f32⟩ : BufTy).Contents (Elt F)),
    StableHlo.binary main_v9 main_v11 main_v12 (addf : (⟨S16384x7x256, .f32⟩ : BufTy).Contents (Elt F) → (⟨S16384x7x256, .f32⟩ : BufTy).Contents (Elt F) → (⟨S16384x7x256, .f32⟩ : BufTy).Contents (Elt F)),
    StableHlo.nullary main_cst_0 (constant S_ .f32 0x00000000#32),
    StableHlo.binary main_v12 main_cst_0 main_v13 ((fun x v => Host.reduceAdd x v reducesTo_S16384x7x256_S16384x7_d2 h_S_) : (⟨S16384x7x256, .f32⟩ : BufTy).Contents (Elt F) → (⟨S_, .f32⟩ : BufTy).Contents (Elt F) → (⟨S16384x7, .f32⟩ : BufTy).Contents (Elt F)),
    StableHlo.unary main_v13 main_v14 (broadcastInDim S16384x7x1 ![0, 1] bcast_S16384x7_S16384x7x1_0_1 : (⟨S16384x7, .f32⟩ : BufTy).Contents (Elt F) → (⟨S16384x7x1, .f32⟩ : BufTy).Contents (Elt F)),
    StableHlo.nullary main_cst_1 (constant S_ .f32 0x43800000#32),
    StableHlo.unary main_cst_1 main_v15 (broadcastInDim S16384x7x1 ![] bcast_S_S16384x7x1 : (⟨S_, .f32⟩ : BufTy).Contents (Elt F) → (⟨S16384x7x1, .f32⟩ : BufTy).Contents (Elt F)),
    StableHlo.binary main_v14 main_v15 main_v16 (Host.divf : (⟨S16384x7x1, .f32⟩ : BufTy).Contents (Elt F) → (⟨S16384x7x1, .f32⟩ : BufTy).Contents (Elt F) → (⟨S16384x7x1, .f32⟩ : BufTy).Contents (Elt F)),
    StableHlo.unary main_v16 main_v17 (broadcastInDim S16384x7x256 ![0, 1, 2] bcast_S16384x7x1_S16384x7x256_0_1_2 : (⟨S16384x7x1, .f32⟩ : BufTy).Contents (Elt F) → (⟨S16384x7x256, .f32⟩ : BufTy).Contents (Elt F)),
    StableHlo.binary main_v12 main_v17 main_v18 (subf : (⟨S16384x7x256, .f32⟩ : BufTy).Contents (Elt F) → (⟨S16384x7x256, .f32⟩ : BufTy).Contents (Elt F) → (⟨S16384x7x256, .f32⟩ : BufTy).Contents (Elt F)),
    StableHlo.binary main_v18 main_v18 main_v19 (mulf : (⟨S16384x7x256, .f32⟩ : BufTy).Contents (Elt F) → (⟨S16384x7x256, .f32⟩ : BufTy).Contents (Elt F) → (⟨S16384x7x256, .f32⟩ : BufTy).Contents (Elt F)),
    StableHlo.nullary main_cst_2 (constant S_ .f32 0x00000000#32),
    StableHlo.binary main_v19 main_cst_2 main_v20 ((fun x v => Host.reduceAdd x v reducesTo_S16384x7x256_S16384x7_d2 h_S_) : (⟨S16384x7x256, .f32⟩ : BufTy).Contents (Elt F) → (⟨S_, .f32⟩ : BufTy).Contents (Elt F) → (⟨S16384x7, .f32⟩ : BufTy).Contents (Elt F)),
    StableHlo.unary main_v20 main_v21 (broadcastInDim S16384x7x1 ![0, 1] bcast_S16384x7_S16384x7x1_0_1 : (⟨S16384x7, .f32⟩ : BufTy).Contents (Elt F) → (⟨S16384x7x1, .f32⟩ : BufTy).Contents (Elt F)),
    StableHlo.nullary main_cst_3 (constant S_ .f32 0x43800000#32),
    StableHlo.unary main_cst_3 main_v22 (broadcastInDim S16384x7x1 ![] bcast_S_S16384x7x1 : (⟨S_, .f32⟩ : BufTy).Contents (Elt F) → (⟨S16384x7x1, .f32⟩ : BufTy).Contents (Elt F)),
    StableHlo.binary main_v21 main_v22 main_v23 (Host.divf : (⟨S16384x7x1, .f32⟩ : BufTy).Contents (Elt F) → (⟨S16384x7x1, .f32⟩ : BufTy).Contents (Elt F) → (⟨S16384x7x1, .f32⟩ : BufTy).Contents (Elt F)),
    StableHlo.unary main_v16 main_v24 (broadcastInDim S16384x7x256 ![0, 1, 2] bcast_S16384x7x1_S16384x7x256_0_1_2 : (⟨S16384x7x1, .f32⟩ : BufTy).Contents (Elt F) → (⟨S16384x7x256, .f32⟩ : BufTy).Contents (Elt F)),
    StableHlo.binary main_v12 main_v24 main_v25 (subf : (⟨S16384x7x256, .f32⟩ : BufTy).Contents (Elt F) → (⟨S16384x7x256, .f32⟩ : BufTy).Contents (Elt F) → (⟨S16384x7x256, .f32⟩ : BufTy).Contents (Elt F)),
    StableHlo.nullary main_cst_4 (constant S_ .f32 0x3727C5AC#32),
    StableHlo.unary main_cst_4 main_v26 (broadcastInDim S16384x7x1 ![] bcast_S_S16384x7x1 : (⟨S_, .f32⟩ : BufTy).Contents (Elt F) → (⟨S16384x7x1, .f32⟩ : BufTy).Contents (Elt F)),
    StableHlo.binary main_v23 main_v26 main_v27 (addf : (⟨S16384x7x1, .f32⟩ : BufTy).Contents (Elt F) → (⟨S16384x7x1, .f32⟩ : BufTy).Contents (Elt F) → (⟨S16384x7x1, .f32⟩ : BufTy).Contents (Elt F)),
    StableHlo.unary main_v27 main_v28 (Host.rsqrt : (⟨S16384x7x1, .f32⟩ : BufTy).Contents (Elt F) → (⟨S16384x7x1, .f32⟩ : BufTy).Contents (Elt F)),
    StableHlo.unary main_v28 main_v29 (broadcastInDim S16384x7x256 ![0, 1, 2] bcast_S16384x7x1_S16384x7x256_0_1_2 : (⟨S16384x7x1, .f32⟩ : BufTy).Contents (Elt F) → (⟨S16384x7x256, .f32⟩ : BufTy).Contents (Elt F)),
    StableHlo.binary main_v25 main_v29 main_v30 (mulf : (⟨S16384x7x256, .f32⟩ : BufTy).Contents (Elt F) → (⟨S16384x7x256, .f32⟩ : BufTy).Contents (Elt F) → (⟨S16384x7x256, .f32⟩ : BufTy).Contents (Elt F)),
    StableHlo.unary main_arg3 main_v31 (broadcastInDim S1x1x256 ![2] bcast_S256_S1x1x256_2 : (⟨S256, .f32⟩ : BufTy).Contents (Elt F) → (⟨S1x1x256, .f32⟩ : BufTy).Contents (Elt F)),
    StableHlo.unary main_v31 main_v32 (broadcastInDim S16384x7x256 ![0, 1, 2] bcast_S1x1x256_S16384x7x256_0_1_2 : (⟨S1x1x256, .f32⟩ : BufTy).Contents (Elt F) → (⟨S16384x7x256, .f32⟩ : BufTy).Contents (Elt F)),
    StableHlo.binary main_v30 main_v32 main_v33 (mulf : (⟨S16384x7x256, .f32⟩ : BufTy).Contents (Elt F) → (⟨S16384x7x256, .f32⟩ : BufTy).Contents (Elt F) → (⟨S16384x7x256, .f32⟩ : BufTy).Contents (Elt F)),
    StableHlo.unary main_arg4 main_v34 (broadcastInDim S1x1x256 ![2] bcast_S256_S1x1x256_2 : (⟨S256, .f32⟩ : BufTy).Contents (Elt F) → (⟨S1x1x256, .f32⟩ : BufTy).Contents (Elt F)),
    StableHlo.unary main_v34 main_v35 (broadcastInDim S16384x7x256 ![0, 1, 2] bcast_S1x1x256_S16384x7x256_0_1_2 : (⟨S1x1x256, .f32⟩ : BufTy).Contents (Elt F) → (⟨S16384x7x256, .f32⟩ : BufTy).Contents (Elt F)),
    StableHlo.binary main_v33 main_v35 main_v36 (addf : (⟨S16384x7x256, .f32⟩ : BufTy).Contents (Elt F) → (⟨S16384x7x256, .f32⟩ : BufTy).Contents (Elt F) → (⟨S16384x7x256, .f32⟩ : BufTy).Contents (Elt F)),
    StableHlo.unary main_v36 main_v37 (Host.tanh : (⟨S16384x7x256, .f32⟩ : BufTy).Contents (Elt F) → (⟨S16384x7x256, .f32⟩ : BufTy).Contents (Elt F)),
    StableHlo.binary main_v37 main_arg5 main_v38 ((fun l r => Host.dotGeneral dot_S16384x7x256_S256x256_S16384x7x256_2_0_01_1_n_n none l r) : (⟨S16384x7x256, .f32⟩ : BufTy).Contents (Elt F) → (⟨S256x256, .f32⟩ : BufTy).Contents (Elt F) → (⟨S16384x7x256, .f32⟩ : BufTy).Contents (Elt F)),
    StableHlo.unary main_arg6 main_v39 (broadcastInDim S1x1x256 ![2] bcast_S256_S1x1x256_2 : (⟨S256, .f32⟩ : BufTy).Contents (Elt F) → (⟨S1x1x256, .f32⟩ : BufTy).Contents (Elt F)),
    StableHlo.unary main_v39 main_v40 (broadcastInDim S16384x7x256 ![0, 1, 2] bcast_S1x1x256_S16384x7x256_0_1_2 : (⟨S1x1x256, .f32⟩ : BufTy).Contents (Elt F) → (⟨S16384x7x256, .f32⟩ : BufTy).Contents (Elt F)),
    StableHlo.binary main_v38 main_v40 main_v41 (addf : (⟨S16384x7x256, .f32⟩ : BufTy).Contents (Elt F) → (⟨S16384x7x256, .f32⟩ : BufTy).Contents (Elt F) → (⟨S16384x7x256, .f32⟩ : BufTy).Contents (Elt F)),
    StableHlo.TRef.nullary main_call0.cst (constant S_ .f32 0x00000000#32),
    StableHlo.TRef.unary main_call0.cst main_call0.v0 (broadcastInDim S16384x7x256 ![] bcast_S_S16384x7x256),
    StableHlo.TRef.binary (.of main_v41) main_call0.v0 main_call0.v1 (cmpf .ogt),
    StableHlo.TRef.nullary main_call0.cst_0 (constant S_ .f32 0x00000000#32),
    StableHlo.TRef.unary main_call0.cst_0 main_call0.v2 (broadcastInDim S16384x7x256 ![] bcast_S_S16384x7x256),
    StableHlo.TRef.binary (.of main_v41) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S16384x7x256 ![] bcast_S_S16384x7x256),
    StableHlo.TRef.ternary main_call0.v3 main_call0.call0.v1 (.of main_v41) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S16384x7x256 ![] bcast_S_S16384x7x256),
    StableHlo.TRef.binary main_call0.v6 main_call0.v5 main_call0.v7 mulf,
    StableHlo.TRef.ternary main_call0.v1 (.of main_v41) main_call0.v7 main_call0.call1.v0 select,
    StableHlo.binary main_v42 main_arg7 main_v43 ((fun l r => Host.dotGeneral dot_S16384x7x256_S256x64_S16384x7x64_2_0_01_1_n_n none l r) : (⟨S16384x7x256, .f32⟩ : BufTy).Contents (Elt F) → (⟨S256x64, .f32⟩ : BufTy).Contents (Elt F) → (⟨S16384x7x64, .f32⟩ : BufTy).Contents (Elt F)),
    StableHlo.unary main_arg8 main_v44 (broadcastInDim S1x1x64 ![2] bcast_S64_S1x1x64_2 : (⟨S64, .f32⟩ : BufTy).Contents (Elt F) → (⟨S1x1x64, .f32⟩ : BufTy).Contents (Elt F)),
    StableHlo.unary main_v44 main_v45 (broadcastInDim S16384x7x64 ![0, 1, 2] bcast_S1x1x64_S16384x7x64_0_1_2 : (⟨S1x1x64, .f32⟩ : BufTy).Contents (Elt F) → (⟨S16384x7x64, .f32⟩ : BufTy).Contents (Elt F)),
    StableHlo.binary main_v43 main_v45 main_v46 (addf : (⟨S16384x7x64, .f32⟩ : BufTy).Contents (Elt F) → (⟨S16384x7x64, .f32⟩ : BufTy).Contents (Elt F) → (⟨S16384x7x64, .f32⟩ : BufTy).Contents (Elt F)),
    StableHlo.nullary main_cst_5 (constant S_ .f32 0x00000000#32),
    StableHlo.binary main_v46 main_cst_5 main_v47 ((fun x v => Host.reduceAdd x v reducesTo_S16384x7x64_S16384x64_d1 h_S_) : (⟨S16384x7x64, .f32⟩ : BufTy).Contents (Elt F) → (⟨S_, .f32⟩ : BufTy).Contents (Elt F) → (⟨S16384x64, .f32⟩ : BufTy).Contents (Elt F)),
    StableHlo.binary main_v0 main_v47 main_v48 ((fun a b => concatenate S16384x112 1 [⟨S16384x48, a⟩, ⟨S16384x64, b⟩] concatenates_S16384x48_S16384x64_S16384x112_d1) : (⟨S16384x48, .f32⟩ : BufTy).Contents (Elt F) → (⟨S16384x64, .f32⟩ : BufTy).Contents (Elt F) → (⟨S16384x112, .f32⟩ : BufTy).Contents (Elt F)) ]

set_option maxRecDepth 8192 in
set_option maxHeartbeats 4000000 in
/-- The program is that straight line: the called functions unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., reshape_bufs_sub .., unary_bufs_sub .., unary_bufs_sub .., unary_bufs_sub .., unary_bufs_sub .., unary_bufs_sub .., nary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., binary_bufs_sub ..⟩

set_option maxRecDepth 8192 in
set_option maxHeartbeats 32000000 in
/-- From any memory with zero counters every weakly fair execution of the reference terminates with the result buffer
    at `result` of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefRun

end
-- ==== Proof.LibHostRank3.lean ====
/-
  Host operations on a rank-3 array of rows, read at an index given by coordinates, at the ideal values and for any
  extents.

  • `dotGeneral_rowsMat_apply`: a stack of rows [G, m, k] times a matrix [k, n], contracting the rows' last axis with the
    matrix's first (no batch axis): at (g, a, b) the sum over the contraction position c of A (g, a, c) · B (c, b) —
    a linear layer `x · W` applied to every row of every member.
  • `hostReduceAdd_mid3_apply`: the host's sum over the MIDDLE axis of a rank-3 array, at (a, c): the initial value
    plus the sum over the middle coordinate.
  • five readings of the host's `broadcast_in_dim` into a rank-3 shape: a vector along the last axis (through
    [1, 1, c]), a vector along the middle axis with a unit last axis (through [1, b, 1]), a matrix [a, c] repeated
    along a new middle axis (through [a, 1, c]), a matrix [a, b] given a unit last axis, and a unit last axis
    repeated.
-/
import Idealize.ShloMosaic.PureOps.Ideal.Laws
import Idealize.ShloMosaic.Lib.ValueIdx
import Idealize.ShloMosaic.Lib.Pipeline.Value

namespace Cert.Lib.HostRank3

open Idealize.ShloMosaic Idealize.ShloMosaic.ValueIdx

/-- `dot_general` of [G, m, k] with [k, n], contracting axes 2 and 0, no batch axes, result [G, m, n]: at (g, a, b) the
    sum over the contracted coordinate of the products of row (g, a) with column b. At the ideal values. -/
theorem dotGeneral_rowsMat_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r2 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r2]

/-- The host's `reduce … add` over the middle axis of a rank-3 array, at (a, c): the initial value's element plus the
    sum over the middle coordinate. At the ideal values. -/
theorem hostReduceAdd_mid3_apply {n0 n1 n2 : Nat} {φ : FTy} {u : Shape}
    (x : FVec Ideal ⟨3, ![n0, n1, n2]⟩ φ) (init : u.Idx → Ideal φ)
    (h' : (⟨3, ![n0, n1, n2]⟩ : Shape).ReducesTo [1] ⟨2, ![n0, n2]⟩) (hu : 0 < u.numel) (a : Fin n0) (c : Fin n2) :
    Host.reduceAdd x init h' hu (ix2 a c) = init (Shape.Idx.first hu) + ∑ b : Fin n1, x (ix3 a b c) := by
  have h : (⟨3, ![n0, n1, n2]⟩ : Shape).Reduces [1] ⟨2, ![n0, n2]⟩ := ⟨h'.1, Nat.two_pos, h'.2⟩
  show Ideal.hostReduceAdd h' x _ (ix2 a c) = _
  rw [Ideal.hostReduceAdd_single h' h]
  refine congrArg (init (Shape.Idx.first hu) + ·) (Finset.sum_congr rfl fun b _ => congrArg x ?_)
  funext ax; apply Fin.ext
  match ax with
  | ⟨0, _⟩ => rfl
  | ⟨1, _⟩ => rfl
  | ⟨2, _⟩ => rfl

variable {α : Type}

/-- A vector [c] laid along the last axis of [a, b, c] (through [1, 1, c]): at (p, q, k) the vector's entry k. -/
theorem bcast_last_apply {a b c : ℕ} (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h2 (broadcastInDim ⟨3, ![1, 1, c]⟩ ![2] h1 x) (ix3 p q k) = x (ix1 k) := by
  refine (broadcastInDim_apply _ h2 _ (ix3 p q k) (ix3 (0 : Fin 1) (0 : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  refine broadcastInDim_apply _ h1 x _ (ix1 k) fun ax => ?_
  match ax with
  | ⟨0, _⟩ =>
    show k.val = if c = 1 then 0 else k.val
    split
    · have := k.isLt; omega
    · rfl

/-- A vector [b] laid along the middle axis of [a, b, 1] (through [1, b, 1]): at (p, q, u) the vector's entry q. -/
theorem bcast_mid_apply {a b : ℕ} (x : (⟨1, ![b]⟩ : Shape).Idx → α)
    (h1 : (⟨1, ![b]⟩ : Shape).BroadcastsInDim ⟨3, ![1, b, 1]⟩ (![1] : Fin 1 → Fin 3))
    (h2 : (⟨3, ![1, b, 1]⟩ : Shape).BroadcastsInDim ⟨3, ![a, b, 1]⟩ (![0, 1, 2] : Fin 3 → Fin 3))
    (p : Fin a) (q : Fin b) (u : Fin 1) :
    broadcastInDim ⟨3, ![a, b, 1]⟩ ![0, 1, 2] h2 (broadcastInDim ⟨3, ![1, b, 1]⟩ ![1] h1 x) (ix3 p q u) = x (ix1 q) := by
  refine (broadcastInDim_apply _ h2 _ (ix3 p q u) (ix3 (0 : Fin 1) q (0 : Fin 1)) fun ax => ?_).trans ?_
  · match ax with
    | ⟨0, _⟩ => rfl
    | ⟨1, _⟩ =>
      show q.val = if b = 1 then 0 else q.val
      split
      · have := q.isLt; omega
      · rfl
    | ⟨2, _⟩ => rfl
  refine broadcastInDim_apply _ h1 x _ (ix1 q) fun ax => ?_
  match ax with
  | ⟨0, _⟩ =>
    show q.val = if b = 1 then 0 else q.val
    split
    · have := q.isLt; omega
    · rfl

/-- A matrix [a, c] repeated along a new middle axis of [a, b, c] (through [a, 1, c]): at (p, q, k) the entry (p, k). -/
theorem bcast_rows_apply {a b c : ℕ} (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h2 (broadcastInDim ⟨3, ![a, 1, c]⟩ ![0, 2] h1 x) (ix3 p q k) = x (ix2 p k) := by
  refine (broadcastInDim_apply _ h2 _ (ix3 p q k) (ix3 p (0 : Fin 1) k) fun ax => ?_).trans ?_
  · match ax with
    | ⟨0, _⟩ =>
      show p.val = if a = 1 then 0 else p.val
      split
      · have := p.isLt; omega
      · rfl
    | ⟨1, _⟩ => rfl
    | ⟨2, _⟩ =>
      show k.val = if c = 1 then 0 else k.val
      split
      · have := k.isLt; omega
      · rfl
  refine broadcastInDim_apply _ h1 x _ (ix2 p k) fun ax => ?_
  match ax with
  | ⟨0, _⟩ =>
    show p.val = if a = 1 then 0 else p.val
    split
    · have := p.isLt; omega
    · rfl
  | ⟨1, _⟩ =>
    show k.val = if c = 1 then 0 else k.val
    split
    · have := k.isLt; omega
    · rfl

/-- A matrix [a, b] given a unit last axis: at (p, q, u) the entry (p, q). -/
theorem bcast_unitLast_apply {a b : ℕ} (x : (⟨2, ![a, b]⟩ : Shape).Idx → α)
    (h : (⟨2, ![a, b]⟩ : Shape).BroadcastsInDim ⟨3, ![a, b, 1]⟩ (![0, 1] : Fin 2 → Fin 3))
    (p : Fin a) (q : Fin b) (u : Fin 1) :
    broadcastInDim ⟨3, ![a, b, 1]⟩ ![0, 1] h x (ix3 p q u) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A unit last axis repeated: [a, b, 1] to [a, b, c] reads, at (p, q, k), the entry (p, q, 0). -/
theorem bcast_spread_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (p : Fin a) (q : Fin b) (k : Fin c) :
    broadcastInDim ⟨3, ![a, b, c]⟩ ![0, 1, 2] h x (ix3 p q k) = x (ix3 p q (0 : Fin 1)) := by
  refine broadcastInDim_apply _ h x _ (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.Lib.HostRank3
-- ==== Proof.LibHostBatchDot.lean ====
/-
  The host's `dot_general` and one-axis `reduce … add` at the ideal values, read at an index given by coordinates,
  for three arrangements of a rank-3 operand that the library's stack lemmas (Lib/StackMember.lean:
  `dotGeneral_stack_apply`, batch axis 0, contracting the left operand's last axis with the right one's middle axis)
  do not cover:

  • `dotGeneral_rows_apply`: a stack of rows [G, m, k] against a matrix [n, k], contracting both LAST axes, no batch
    axis — every row of every member times the transposed matrix (a linear layer `x · Wᵀ` over leading axes);
  • `dotGeneral_stackT_apply`: two stacks [G, k, m] and [G, k, n], batch axis 0, contracting both MIDDLE axes — per
    member, the transposed first matrix times the second (`Aᵀ · B`, a sum of outer products over the rows);
  • `hostReduceAdd_last3_apply`: the host's sum over the LAST axis of a rank-3 array, at (a, b): the initial value
    plus the sum over the last coordinate.

  Each is the library's reading (`Ideal.dotGeneral_apply`, `Ideal.hostReduceAdd_single`) with the contraction index
  re-indexed by its one coordinate (`ValueIdx.contrEquiv1`) and the operand indices written `ix2` / `ix3`, at any
  extents. `w` is the dimension record's well-formedness, which a program states.
-/
import Idealize.ShloMosaic.PureOps.Ideal.Laws
import Idealize.ShloMosaic.Lib.ValueIdx

namespace Cert.Lib.HostBatchDot

open Idealize.ShloMosaic Idealize.ShloMosaic.ValueIdx

variable {G m n k : Nat} {φ₁ φ₂ : FTy}

/-- `dot_general` of [G, m, k] with [n, k], contracting axes 2 and 1, no batch axes, result [G, m, n]: at (g, a, b) the
    sum over the contracted coordinate of the products of row (g, a) with row b. At the ideal values. -/
theorem dotGeneral_rows_apply
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r2 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c3
  rw [l3, r2]

/-- `dot_general` of [G, k, m] with [G, k, n], batch axes 0 and 0, contracting axes 1 and 1, result [G, m, n]: at
    (g, a, b) the sum over the contracted coordinate c of A[g, c, a] · B[g, c, b]. At the ideal values. -/
theorem dotGeneral_stackT_apply
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ix3 g a b)
      = ∑ c : Fin k, A (ix3 g c a) * B (ix3 g c b) := by
  show FloatOps.dotGeneral _ prec _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- The host's `reduce … add` over the last axis of a rank-3 array, at (a, b): the initial value's element plus the sum
    over the last coordinate. At the ideal values. -/
theorem hostReduceAdd_last3_apply {n0 n1 n2 : Nat} {φ : FTy} {u : Shape}
    (x : FVec Ideal ⟨3, ![n0, n1, n2]⟩ φ) (init : u.Idx → Ideal φ)
    (h' : (⟨3, ![n0, n1, n2]⟩ : Shape).ReducesTo [2] ⟨2, ![n0, n1]⟩) (hu : 0 < u.numel) (a : Fin n0) (b : Fin n1) :
    Host.reduceAdd x init h' hu (ix2 a b) = init (Shape.Idx.first hu) + ∑ c : Fin n2, x (ix3 a b c) := by
  have h : (⟨3, ![n0, n1, n2]⟩ : Shape).Reduces [2] ⟨2, ![n0, n1]⟩ := ⟨h'.1, Nat.two_pos, h'.2⟩
  show Ideal.hostReduceAdd h' x _ (ix2 a b) = _
  rw [Ideal.hostReduceAdd_single h' h]
  refine congrArg (init (Shape.Idx.first hu) + ·) (Finset.sum_congr rfl fun c _ => congrArg x ?_)
  funext ax; apply Fin.ext
  match ax with
  | ⟨0, _⟩ => rfl
  | ⟨1, _⟩ => rfl
  | ⟨2, _⟩ => rfl

end Cert.Lib.HostBatchDot
-- ==== Proof.RRead.lean ====
/-
  The reference's stages, read entry by entry on the extended reals.

  The reference works on one array indexed by batch row, neighbour and feature. Row (R, n) of every stage depends on
  row (R, n) of the stage before: the feature row is the batch row's ego features, neighbour n's features and team
  number; a product of the rows with a matrix is, at (R, n, j), the sum over the contraction position; a bias is
  repeated over batch rows and neighbours; the mean over the last axis, kept as a unit axis and repeated, is one
  number per row. Each stage is therefore the specification's row function, and the sum over the neighbours gives
  the array of 64 sums.
-/
import proofs.«178341_j24919400252111_1_alg».proof.Proof.RRun
import proofs.«178341_j24919400252111_1_alg».proof.Proof.Spec
import proofs.«178341_j24919400252111_1_alg».proof.Proof.Layout
import proofs.«178341_j24919400252111_1_alg».proof.Proof.LibHostRank3
import proofs.«178341_j24919400252111_1_alg».proof.Proof.LibHostBatchDot
import Idealize.ShloMosaic.Lib.IdealHost
import Idealize.ShloMosaic.Lib.Pipeline.Value
import Idealize.ShloMosaic.Lib.ValueIdx

noncomputable section

namespace Cert.ReferenceIdeal.RefRun

open Cert.ReferenceIdeal Cert.ReferenceIdeal.Gen Idealize.ShloMosaic Idealize.ShloMosaic.ValueIdx
open Cert.Lib.HostRank3 Cert.Lib.HostBatchDot

/-- The team number of neighbour `n`. -/
theorem teams_apply (n : Fin 7) : teams (F := Ideal) (ix1 n) = Ideal.ofBits .f32 (Spec.teamBits n) := by
  show Ideal.ofBits .f32 (lit0 (S7.rowMajor (ix1 n))) = _
  refine congrArg (Ideal.ofBits .f32) ?_
  fin_cases n <;> rfl

/-- The feature array at (R, n, k): the ego entry for k < 48, neighbour n's entry k − 48 for 48 ≤ k < 72, the team
    number at k = 72. -/
theorem feats_apply (obs : FVec Ideal S16384x216 .f32) (R : Fin 16384) (n : Fin 7) (k : Fin 73) :
    feats obs (ix3 R n k)
      = Spec.feat (fun i => obs (ix2 R ⟨i.val, by have := i.isLt; omega⟩))
          (fun i => obs (ix2 R ⟨48 + i.val * 7 + n.val, by have := i.isLt; have := n.isLt; omega⟩))
          (Ideal.ofBits .f32 (Spec.teamBits n)) k := by
  unfold feats Spec.feat
  split
  · rename_i h
    refine (concatenate_apply_piece (t := S16384x7x73) (2 : Fin 3) [⟨S16384x7x48, broadcastInDim S16384x7x48 ![0, 1, 2] bcast_S16384x1x48_S16384x7x48_0_1_2
        (broadcastInDim S16384x1x48 ![0, 2] bcast_S16384x48_S16384x1x48_0_2 (ego obs))⟩,
      ⟨S16384x7x24, transpose S16384x7x24 [0, 2, 1]
        (shapeCast S16384x24x7 (extractStridedSlice S16384x168 ![0, 48] obs slices_S16384x216_S16384x168_0_48)
          shapeCasts_S16384x168_S16384x24x7) transposes_S16384x24x7_S16384x7x24_0_2_1⟩,
      ⟨S16384x7x1, broadcastInDim S16384x7x1 ![0, 1, 2] bcast_S1x7x1_S16384x7x1_0_1_2
        (broadcastInDim S1x7x1 ![1] bcast_S7_S1x7x1_1 (teams (F := Ideal)))⟩]
      concatenates_S16384x7x48_S16384x7x24_S16384x7x1_S16384x7x73_d2 (ix3 R n k) 0 (by simp) S16384x7x48 _ rfl rfl 0 rfl
      (ix3 R n ⟨k.val, h⟩) (fun b hb => by
        match b with
        | ⟨0, _⟩ => rfl
        | ⟨1, _⟩ => rfl
        | ⟨2, _⟩ => exact (hb (Fin.ext rfl)).elim)
      (by show 0 + k.val = k.val; omega)).trans ?_
    refine (bcast_rows_apply _ _ _ R n ⟨k.val, h⟩).trans ?_
    exact Layout.ego_apply obs _ R ⟨k.val, h⟩
  · rename_i h
    split
    · rename_i h'
      refine (concatenate_apply_piece (t := S16384x7x73) (2 : Fin 3) [⟨S16384x7x48, broadcastInDim S16384x7x48 ![0, 1, 2] bcast_S16384x1x48_S16384x7x48_0_1_2
        (broadcastInDim S16384x1x48 ![0, 2] bcast_S16384x48_S16384x1x48_0_2 (ego obs))⟩,
      ⟨S16384x7x24, transpose S16384x7x24 [0, 2, 1]
        (shapeCast S16384x24x7 (extractStridedSlice S16384x168 ![0, 48] obs slices_S16384x216_S16384x168_0_48)
          shapeCasts_S16384x168_S16384x24x7) transposes_S16384x24x7_S16384x7x24_0_2_1⟩,
      ⟨S16384x7x1, broadcastInDim S16384x7x1 ![0, 1, 2] bcast_S1x7x1_S16384x7x1_0_1_2
        (broadcastInDim S1x7x1 ![1] bcast_S7_S1x7x1_1 (teams (F := Ideal)))⟩]
        concatenates_S16384x7x48_S16384x7x24_S16384x7x1_S16384x7x73_d2 (ix3 R n k) 1 (by simp) S16384x7x24 _ rfl rfl 48 rfl
        (ix3 R n ⟨k.val - 48, by omega⟩) (fun b hb => by
        match b with
        | ⟨0, _⟩ => rfl
        | ⟨1, _⟩ => rfl
        | ⟨2, _⟩ => exact (hb (Fin.ext rfl)).elim)
        (by show 48 + (k.val - 48) = k.val; omega)).trans ?_
      exact Layout.byNeighbour_apply obs _ _ _ R n ⟨k.val - 48, by omega⟩
    · rename_i h'
      refine (concatenate_apply_piece (t := S16384x7x73) (2 : Fin 3) [⟨S16384x7x48, broadcastInDim S16384x7x48 ![0, 1, 2] bcast_S16384x1x48_S16384x7x48_0_1_2
        (broadcastInDim S16384x1x48 ![0, 2] bcast_S16384x48_S16384x1x48_0_2 (ego obs))⟩,
      ⟨S16384x7x24, transpose S16384x7x24 [0, 2, 1]
        (shapeCast S16384x24x7 (extractStridedSlice S16384x168 ![0, 48] obs slices_S16384x216_S16384x168_0_48)
          shapeCasts_S16384x168_S16384x24x7) transposes_S16384x24x7_S16384x7x24_0_2_1⟩,
      ⟨S16384x7x1, broadcastInDim S16384x7x1 ![0, 1, 2] bcast_S1x7x1_S16384x7x1_0_1_2
        (broadcastInDim S1x7x1 ![1] bcast_S7_S1x7x1_1 (teams (F := Ideal)))⟩]
        concatenates_S16384x7x48_S16384x7x24_S16384x7x1_S16384x7x73_d2 (ix3 R n k) 2 (by simp) S16384x7x1 _ rfl rfl 72 rfl
        (ix3 R n (0 : Fin 1)) (fun b hb => by
        match b with
        | ⟨0, _⟩ => rfl
        | ⟨1, _⟩ => rfl
        | ⟨2, _⟩ => exact (hb (Fin.ext rfl)).elim)
        (by show 72 + 0 = k.val; have := k.isLt; omega)).trans ?_
      exact (bcast_mid_apply _ _ _ R n (0 : Fin 1)).trans (teams_apply n)

/-- A bias row at (R, n, h). -/
theorem row256_apply (b : FVec Ideal S256 .f32) (R : Fin 16384) (n : Fin 7) (h : Fin 256) : row256 b (ix3 R n h) = b (ix1 h) :=
  bcast_last_apply b _ _ R n h
theorem row64_apply (b : FVec Ideal S64 .f32) (R : Fin 16384) (n : Fin 7) (o : Fin 64) : row64 b (ix3 R n o) = b (ix1 o) :=
  bcast_last_apply b _ _ R n o

/-- The first layer at (R, n, h). -/
theorem lay1_apply (obs : FVec Ideal S16384x216 .f32) (W1 : FVec Ideal S73x256 .f32) (b1 : FVec Ideal S256 .f32)
    (R : Fin 16384) (n : Fin 7) (h : Fin 256) :
    lay1 obs W1 b1 (ix3 R n h)
      = Spec.lin (Spec.feat (fun i => obs (ix2 R ⟨i.val, by have := i.isLt; omega⟩))
          (fun i => obs (ix2 R ⟨48 + i.val * 7 + n.val, by have := i.isLt; have := n.isLt; omega⟩))
          (Ideal.ofBits .f32 (Spec.teamBits n))) W1 b1 h := by
  unfold lay1 Spec.lin
  rw [addf_apply, row256_apply]
  refine congrArg (· + b1 (ix1 h)) ?_
  refine (dotGeneral_rowsMat_apply dot_S16384x7x73_S73x256_S16384x7x256_2_0_01_1_n_n_wf none (feats obs) W1 R n h).trans ?_
  exact Finset.sum_congr rfl fun k _ => congrArg (· * W1 (ix2 k h)) (feats_apply obs R n k)

/-- The mean over the last axis at (R, n, 0): the mean of row (R, n). -/
theorem meanCol_apply (v : FVec Ideal S16384x7x256 .f32) (R : Fin 16384) (n : Fin 7) (u : Fin 1) :
    meanCol v (ix3 R n u) = Spec.mean (fun k => v (ix3 R n k)) := by
  unfold meanCol Spec.mean
  rw [hostDivf_apply, bcast_unitLast_apply, broadcastInDim_scalar_apply, hostReduceAdd_last3_apply]
  show Ideal.div (Ideal.ofBits .f32 0x00000000#32 + ∑ k : Fin 256, v (ix3 R n k)) (Ideal.ofBits .f32 0x43800000#32) = _
  rw [Ideal.ofBits_zero_f32, zero_add]

theorem spread_apply (x : FVec Ideal S16384x7x1 .f32) (R : Fin 16384) (n : Fin 7) (h : Fin 256) :
    spread x (ix3 R n h) = x (ix3 R n (0 : Fin 1)) :=
  bcast_spread_apply x _ R n h

/-- A row less its mean, at (R, n, h). -/
theorem cent_apply (v : FVec Ideal S16384x7x256 .f32) (R : Fin 16384) (n : Fin 7) (h : Fin 256) :
    cent v (ix3 R n h) = Spec.cen (fun k => v (ix3 R n k)) h := by
  unfold cent Spec.cen
  rw [subf_apply, spread_apply, meanCol_apply]

/-- Normalisation, scale, shift and tanh at (R, n, h). -/
theorem act_apply (v : FVec Ideal S16384x7x256 .f32) (g b : FVec Ideal S256 .f32) (R : Fin 16384) (n : Fin 7) (h : Fin 256) :
    act v g b (ix3 R n h) = Spec.act (fun k => v (ix3 R n k)) g b h := by
  unfold act Spec.act
  change Ideal.tanh ((addf _ _ : FVec Ideal S16384x7x256 .f32) (ix3 R n h)) = _
  rw [addf_apply, mulf_apply, mulf_apply, row256_apply, row256_apply, spread_apply]
  change Ideal.tanh (cent v (ix3 R n h) * Ideal.rsqrt ((addf (meanCol (mulf (cent v) (cent v))) _ : FVec Ideal S16384x7x1 .f32)
    (ix3 R n (0 : Fin 1))) * g (ix1 h) + b (ix1 h)) = _
  rw [addf_apply, meanCol_apply, broadcastInDim_scalar_apply, cent_apply]
  simp only [mulf_apply, cent_apply]
  rfl

/-- The second layer at (R, n, j). -/
theorem lay2_apply (a : FVec Ideal S16384x7x256 .f32) (W2 : FVec Ideal S256x256 .f32) (b2 : FVec Ideal S256 .f32)
    (R : Fin 16384) (n : Fin 7) (j : Fin 256) :
    lay2 a W2 b2 (ix3 R n j) = Spec.lin (fun k => a (ix3 R n k)) W2 b2 j := by
  unfold lay2 Spec.lin
  rw [addf_apply, row256_apply]
  refine congrArg (· + b2 (ix1 j)) ?_
  exact dotGeneral_rowsMat_apply dot_S16384x7x256_S256x256_S16384x7x256_2_0_01_1_n_n_wf none a W2 R n j

/-- The reference's spelling of the exponential linear unit is the specification's, entry by entry: above zero both
    keep the entry; elsewhere the inner selection returns the entry, and one times (its exponential less one) is its
    exponential less the float one. -/
theorem eluR_apply (h : FVec Ideal S16384x7x256 .f32) (i : S16384x7x256.Idx) : eluR h i = Spec.elu (h i) := by
  show Scalar.select (FloatOps.cmpf (F := Ideal) (φ := .f32) .ogt (h i) (Ideal.ofBits .f32 0x00000000#32)) (h i)
      (Ideal.ofBits .f32 0x3F800000#32 * (Ideal.exp (Scalar.select (FloatOps.cmpf (F := Ideal) (φ := .f32) .ogt (h i)
        (Ideal.ofBits .f32 0x00000000#32)) (Ideal.ofBits .f32 0x00000000#32) (h i)) - 1)) = _
  unfold Spec.elu
  by_cases hc : FloatOps.cmpf (F := Ideal) (φ := .f32) .ogt (h i) (Ideal.ofBits .f32 0x00000000#32) = 1#1
  · rw [hc, select_one, select_one]
  · rw [eq_zero_of_ne_one hc, select_zero, select_zero, select_zero, Ideal.ofBits_one_f32, one_mul]

/-- The third layer at (R, n, o). -/
theorem lay3_apply (e : FVec Ideal S16384x7x256 .f32) (W3 : FVec Ideal S256x64 .f32) (b3 : FVec Ideal S64 .f32)
    (R : Fin 16384) (n : Fin 7) (o : Fin 64) :
    lay3 e W3 b3 (ix3 R n o) = Spec.lin (fun k => e (ix3 R n k)) W3 b3 o := by
  unfold lay3 Spec.lin
  rw [addf_apply, row64_apply]
  refine congrArg (· + b3 (ix1 o)) ?_
  exact dotGeneral_rowsMat_apply dot_S16384x7x256_S256x64_S16384x7x64_2_0_01_1_n_n_wf none e W3 R n o

/-- The sum over the neighbours at (R, o): the float zero plus the seven entries. -/
theorem sumN_apply (v : FVec Ideal S16384x7x64 .f32) (R : Fin 16384) (o : Fin 64) :
    sumN v (ix2 R o) = Ideal.ofBits .f32 0x00000000#32 + ∑ n : Fin 7, v (ix3 R n o) :=
  hostReduceAdd_mid3_apply v _ _ _ R o

/-- The reference's array of sums is the specification's. -/
theorem sums_eq (obs : FVec Ideal S16384x216 .f32) (W1 : FVec Ideal S73x256 .f32) (b1 g b : FVec Ideal S256 .f32)
    (W2 : FVec Ideal S256x256 .f32) (b2 : FVec Ideal S256 .f32) (W3 : FVec Ideal S256x64 .f32) (b3 : FVec Ideal S64 .f32) :
    sums obs W1 b1 g b W2 b2 W3 b3 = Spec.latent obs W1 b1 g b W2 b2 W3 b3 := by
  funext j
  obtain ⟨R, o, rfl⟩ : ∃ (R : Fin 16384) (o : Fin 64), j = ix2 R o := ⟨j 0, j 1, eq_ix2 j⟩
  unfold sums Spec.latent
  rw [sumN_apply, ← Spec.zero_add_sum7]
  refine congrArg (Ideal.ofBits .f32 0x00000000#32 + ·) (Finset.sum_congr rfl fun n _ => ?_)
  rw [lay3_apply]
  unfold Spec.rowOut
  refine congrArg (fun f => Spec.lin f W3 b3 o) (funext fun k => ?_)
  rw [eluR_apply, lay2_apply]
  refine congrArg Spec.elu (congrArg (fun f => Spec.lin f W2 b2 k) (funext fun h => ?_))
  rw [act_apply]
  exact congrArg (fun f => Spec.act f g b h) (funext fun i => lay1_apply obs W1 b1 R n i)

end Cert.ReferenceIdeal.RefRun

end
-- ==== Proof.lean ====
/-
  The kernel and its reference compute, on the extended reals, one function of the nine argument arrays.

  Per batch row and per neighbour (seven of them) a row of 73 features — the batch row's 48 ego features, the
  neighbour's 24 features, the neighbour's team number — goes through a linear layer, a row normalisation (mean
  subtracted, divided by the root of the mean square plus a small constant, scaled and shifted), tanh, a second linear
  layer, the exponential linear unit and a third linear layer to 64 values; the seven results are added and the ego
  features are put in front.

  The kernel tiles the batch rows in sixteen blocks of 1024, unrolls the seven neighbours and adds their results to a
  zero block one after the other; the reference carries the neighbour as a middle axis and sums over it at the end.
  Both sides are sums and products on the extended reals in different arrangements only: a matrix product into a zero
  accumulator against a host contraction, a lane sum against a host sum, a change of float format (the identity),
  `exp x − 1` against the host's `expm1` under a second selection (equal in both cases of the comparison), and seven
  terms added in order against the sum over the neighbour axis (addition on the extended reals is associative). No
  step uses that the inputs are finite.

  The kernel's side: the stored block is the zero block plus seven copies of one per-neighbour function (KStages), read
  entry by entry (KRead), carried from the blocks to the array (KBlocks) and through the final concatenation (KRun).
  The reference's side: its run as a list of operations (RRun) and its stages read entry by entry (RRead). Both meet
  at the specification (Spec); the re-laid neighbour columns are shared (Layout).
-/
import proofs.«178341_j24919400252111_1_alg».proof.Defs
import proofs.«178341_j24919400252111_1_alg».proof.Proof.Gen.Kernel
import proofs.«178341_j24919400252111_1_alg».proof.Proof.Gen.Kernel.Frame
import proofs.«178341_j24919400252111_1_alg».proof.Proof.Gen.KernelIdeal
import proofs.«178341_j24919400252111_1_alg».proof.Proof.Gen.KernelIdeal.Frame
import proofs.«178341_j24919400252111_1_alg».proof.Proof.Gen.ReferenceIdeal
import proofs.«178341_j24919400252111_1_alg».proof.Proof.Gen.Pre_finite_inputs
import proofs.«178341_j24919400252111_1_alg».proof.Proof.KRun
import proofs.«178341_j24919400252111_1_alg».proof.Proof.RRead
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing of the kernel was rewritten for the reading on the extended reals. -/
theorem preserves : Cert.preserves_Kernel_KernelIdeal := trivial

/-- From memories agreeing on the arguments both programs end with the same result array: the ego columns followed
    by the array of sums, which both compute as the specification's function of the arguments. -/
theorem algebraic : Cert.algebraic_KernelIdeal_ReferenceIdeal := by
  intro m ρ m' ρ' _ hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8⟩ := hagree c
  rw [a0, a1, a2, a3, a4, a5, a6, a7, a8]
  unfold Cert.ReferenceIdeal.RefRun.result Cert.KernelIdeal.Blocks.out
  rw [Cert.ReferenceIdeal.RefRun.sums_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
